-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 40
  | .vmem => 10
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .i1⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1, .f32⟩
  | .hbm, ⟨20, _⟩ => ⟨S1x8192, .f32⟩
  | .hbm, ⟨21, _⟩ => ⟨S8192x1, .f32⟩
  | .hbm, ⟨22, _⟩ => ⟨S1x8192, .f32⟩
  | .hbm, ⟨23, _⟩ => ⟨S1x1, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call1_v0 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let arg1 : BitVec 32 := BitVec.ofNat 32 (i 1).val
  let v5 : BitVec 1 := Scalar.cmpi .sle arg0 arg1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  bcast_S_S8192 : S_.BroadcastsInDim S8192 (![] : Fin 0 → Fin S8192.rank)
  reducesTo_S8192_S_d0 : S8192.ReducesTo [0] S_
  h_S_ : 0 < S_.numel
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  shapeCasts_S1x1_S1x1 : S1x1.ShapeCasts S1x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v12) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond1 i == 1#1) && !(k0_cond2 i == 1#1) | 5 => fun i => !(k0_cond1 i == 1#1) && !(k0_cond2 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .i1⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192, .i32⟩
  | .hbm, ⟨38, _⟩ => ⟨S_, .f32⟩
  | .hbm, ⟨39, _⟩ => ⟨S8192x8192, .f32⟩
  | .hbm, ⟨40, _⟩ => ⟨S8192x8192, .i1⟩
  | .hbm, ⟨41, _⟩ => ⟨S8192x1, .i32⟩
  | .hbm, ⟨42, _⟩ => ⟨S1x8192, .i32⟩
  | .hbm, ⟨43, _⟩ => ⟨S8192x8192, .i32⟩
  | .hbm, ⟨44, _⟩ => ⟨S8192x8192, .i32⟩
  | .hbm, ⟨45, _⟩ => ⟨S8192x8192, .i1⟩
  | .hbm, ⟨46, _⟩ => ⟨S8192x8192, .i1⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S_, .f32⟩
  | .hbm, ⟨61, _⟩ => ⟨S8192x8192, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_call2_v0 : Ref sig .tc := ⟨.hbm, 56, rfl⟩
abbrev main_call2_v1 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_cst_13 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_call3_v0 : Ref sig .tc := ⟨.hbm, 71, rfl⟩
abbrev main_v48 : Ref sig .tc := ⟨.hbm, 72, rfl⟩
abbrev main_cst_15 : Ref sig .tc := ⟨.hbm, 73, rfl⟩
abbrev main_v49 : Ref sig .tc := ⟨.hbm, 74, rfl⟩
abbrev main_cst_16 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  natLt_1_32 : 1 < 32

variable [Facts₀]

class Facts : Prop extends Facts₀ where

variable [Facts]
-- ==== Proof.KBRuns.lean ====
/-
  The kernel body, run once per control case.

  The body has two conditionals on the grid point `(i, j)`: the first (`i = 0 ∧ j = 0`) zeroes the two 1×1 accumulators, the
  second (`i ≤ j`) loads the four input blocks and both accumulators, and stores each accumulator plus the tile's sum. Over
  the 8 × 8 grid three assignments of the two conditions occur:
  * the first tile (both hold): the accumulators are zeroed, then added to;
  * a later tile on or above the diagonal (only the second holds): the accumulators are read at what the tile before left;
  * a tile strictly below the diagonal (neither holds): the body touches nothing.
  For each case the run states: on whole staging buffers, the inputs at their contents, the body runs to its continuation with
  the inputs as they were and each accumulator's buffer at the pieces its stores wrote (the pieces are found by the run).
-/
import proofs.«137468_j7060926235085_1_alg».proof.Proof.Gen.Kernel.Frame
import proofs.«137468_j7060926235085_1_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid, in closed form -/

/-- The first condition holds at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- The second condition holds where the tile row `t / 8` is not past the tile column `t % 8`. -/
theorem hcond2 : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)

/-- The grid is walked in row-major order. -/
theorem hcoord0 : ∀ t : Fin cfg0.N, (grid0.coords t 0).val = t.val / 8 :=
  (by decide +kernel : ∀ t : Fin grid0.N, (grid0.coords t 0).val = t.val / 8)
theorem hcoord1 : ∀ t : Fin cfg0.N, (grid0.coords t 1).val = t.val % 8 :=
  (by decide +kernel : ∀ t : Fin grid0.N, (grid0.coords t 1).val = t.val % 8)

/-! ## The body on any staging memrefs -/

set_option maxHeartbeats 1000000 in
/-- The first tile: both conditionals taken. The accumulators' buffers may hold anything. -/
noncomputable def kernelRun_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : k0_cond1 i = 1#1) (hc2 : k0_cond2 i = 1#1)
    (x0 : Vec F S1024x1 .f32) (x1 : Vec F S1x1024 .f32) (x2 : Vec F S1024x1 .f32) (x3 : Vec F S1x1024 .f32) :
    Σ' (L4 : List (View.Piece (Elt F) S1x1 .f32)) (L5 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_loss_kernel i arg2 harg2 arg3 harg3 arg4 harg4 arg5 harg5 arg6 harg6 arg7 harg7) K := by
  refine ⟨?_, ?_, fun E K => ?run⟩
  case run =>
    simp only [cc0__pairwise_loss_kernel_eq_skeleton]; unfold cc0__pairwise_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- A later tile on or above the diagonal: only the second conditional taken. The accumulators' buffers hold `xo4`, `xo5`. -/
noncomputable def kernelRun_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : ¬k0_cond1 i = 1#1) (hc2 : k0_cond2 i = 1#1)
    (x0 : Vec F S1024x1 .f32) (x1 : Vec F S1x1024 .f32) (x2 : Vec F S1024x1 .f32) (x3 : Vec F S1x1024 .f32)
    (xo4 : Vec F S1x1 .f32) (xo5 : Vec F S1x1 .f32) :
    Σ' (L4 : List (View.Piece (Elt F) S1x1 .f32)) (L5 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_loss_kernel i arg2 harg2 arg3 harg3 arg4 harg4 arg5 harg5 arg6 harg6 arg7 harg7) K := by
  refine ⟨?_, ?_, fun E K => ?run⟩
  case run =>
    simp only [cc0__pairwise_loss_kernel_eq_skeleton]; unfold cc0__pairwise_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-- A tile strictly below the diagonal: neither conditional taken; the body returns at once, touching nothing. -/
theorem kernelRun_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__pairwise_loss_kernel i arg2 harg2 arg3 harg3 arg4 harg4 arg5 harg5 arg6 harg6 arg7 harg7) K := by
  simp only [cc0__pairwise_loss_kernel_eq_skeleton]; unfold cc0__pairwise_loss_kernel_skel
  iintro Hk
  sl_exec (disch := first | exact hc1 | exact hc2)
  sl_step
  iexact Hk

end Cert.Kernel.Hand

end
-- ==== Proof.KBFrame.lean ====
/-
  The frame of the program: the proof data of its one pipeline, the body obligation at every grid point, the run.

  The two 1×1 accumulators are outputs whose block never moves: they are written back after the last point only. What they hold
  after the body at position `n` is stated by recursion on `n` (`outsAt`): the first tile's run at position 0; at a later tile on
  or above the diagonal that case's run over what position `n - 1` left; at a tile below the diagonal — where the body stores
  nothing — what position `n - 1` left, unchanged. The body finds in an accumulator's buffer what the position before left,
  however many below-diagonal tiles lie between (the buffer is never fresh after the first point).
-/
import proofs.«137468_j7060926235085_1_alg».proof.Proof.KBRuns
import Idealize.ShloMosaic.Lib.Pipeline.TableIdle

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator, through which its contents are stated (the choice does not matter). -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

/-- Each window's current staging memref at point `t`, as the pipeline passes it, and its wholeness. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-! ## What each case leaves in the accumulators -/

/-- The first tile's stores into the first accumulator cover its one cell. -/
theorem cover_A_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) (y : S1x1.Idx) :
    ∃ pc ∈ (kernelRun_A c i arg2 harg2 arg3 harg3 arg4 harg4 arg5 harg5 arg6 harg6 arg7 harg7 hc1 hc2 x0 x1 x2 x3).1, y ∈ pc.1.set :=
  View.cover_of_tiledL (kernelRun_A c i arg2 harg2 arg3 harg3 arg4 harg4 arg5 harg5 arg6 harg6 arg7 harg7 hc1 hc2 x0 x1 x2 x3).1 S1x1.size (by sl_kernel_rfl) y
theorem cover_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) (y : S1x1.Idx) :
    ∃ pc ∈ (kernelRun_A c i arg2 harg2 arg3 harg3 arg4 harg4 arg5 harg5 arg6 harg6 arg7 harg7 hc1 hc2 x0 x1 x2 x3).2.1, y ∈ pc.1.set :=
  View.cover_of_tiledL (kernelRun_A c i arg2 harg2 arg3 harg3 arg4 harg4 arg5 harg5 arg6 harg6 arg7 harg7 hc1 hc2 x0 x1 x2 x3).2.1 S1x1.size (by sl_kernel_rfl) y
/-- What the first tile leaves in each accumulator: its pieces read back. -/
def out_A_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) : Vec F S1x1 .f32 :=
  VO4.read (Elt F) (VO4.writes (Elt F) VO4.junk (kernelRun_A c i arg2 harg2 arg3 harg3 arg4 harg4 arg5 harg5 arg6 harg6 arg7 harg7 hc1 hc2 x0 x1 x2 x3).1)
def out_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) : Vec F S1x1 .f32 :=
  VO5.read (Elt F) (VO5.writes (Elt F) VO5.junk (kernelRun_A c i arg2 harg2 arg3 harg3 arg4 harg4 arg5 harg5 arg6 harg6 arg7 harg7 hc1 hc2 x0 x1 x2 x3).2.1)

/-- A later tile's stores cover each accumulator's one cell. -/
theorem cover_B_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) (y : S1x1.Idx) :
    ∃ pc ∈ (kernelRun_B c i arg2 harg2 arg3 harg3 arg4 harg4 arg5 harg5 arg6 harg6 arg7 harg7 hc1 hc2 x0 x1 x2 x3 xo4 xo5).1, y ∈ pc.1.set :=
  View.cover_of_tiledL (kernelRun_B c i arg2 harg2 arg3 harg3 arg4 harg4 arg5 harg5 arg6 harg6 arg7 harg7 hc1 hc2 x0 x1 x2 x3 xo4 xo5).1 S1x1.size (by sl_kernel_rfl) y
theorem cover_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) (y : S1x1.Idx) :
    ∃ pc ∈ (kernelRun_B c i arg2 harg2 arg3 harg3 arg4 harg4 arg5 harg5 arg6 harg6 arg7 harg7 hc1 hc2 x0 x1 x2 x3 xo4 xo5).2.1, y ∈ pc.1.set :=
  View.cover_of_tiledL (kernelRun_B c i arg2 harg2 arg3 harg3 arg4 harg4 arg5 harg5 arg6 harg6 arg7 harg7 hc1 hc2 x0 x1 x2 x3 xo4 xo5).2.1 S1x1.size (by sl_kernel_rfl) y
/-- What a later tile on or above the diagonal leaves in each accumulator, over what it found (`xo4`, `xo5`). -/
def out_B_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) : Vec F S1x1 .f32 :=
  VO4.read (Elt F) (VO4.writes (Elt F) VO4.junk (kernelRun_B c i arg2 harg2 arg3 harg3 arg4 harg4 arg5 harg5 arg6 harg6 arg7 harg7 hc1 hc2 x0 x1 x2 x3 xo4 xo5).1)
def out_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) : Vec F S1x1 .f32 :=
  VO5.read (Elt F) (VO5.writes (Elt F) VO5.junk (kernelRun_B c i arg2 harg2 arg3 harg3 arg4 harg4 arg5 harg5 arg6 harg6 arg7 harg7 hc1 hc2 x0 x1 x2 x3 xo4 xo5).2.1)

/-! ## The accumulators after each position -/

/-- THE ACCUMULATION: what the two accumulators' buffers hold after the body at position `n`. -/
def outsAt (c : Dev nD) : (n : ℕ) → n < cfg0.N → Vec F S1x1 .f32 × Vec F S1x1 .f32
  | 0, hn =>
    (out_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr rfl) ((hcond2 ⟨0, hn⟩).mpr (show (0 : ℕ) / 8 ≤ 0 % 8 by decide)) (iblk m c 0 ⟨0, hn⟩) (iblk m c 1 ⟨0, hn⟩) (iblk m c 2 ⟨0, hn⟩) (iblk m c 3 ⟨0, hn⟩),
     out_A_5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr rfl) ((hcond2 ⟨0, hn⟩).mpr (show (0 : ℕ) / 8 ≤ 0 % 8 by decide)) (iblk m c 0 ⟨0, hn⟩) (iblk m c 1 ⟨0, hn⟩) (iblk m c 2 ⟨0, hn⟩) (iblk m c 3 ⟨0, hn⟩))
  | n + 1, hn =>
    if h2 : (n + 1) / 8 ≤ (n + 1) % 8 then
      (out_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩)
          (outsAt c n (Nat.lt_of_succ_lt hn)).1 (outsAt c n (Nat.lt_of_succ_lt hn)).2,
       out_B_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩)
          (outsAt c n (Nat.lt_of_succ_lt hn)).1 (outsAt c n (Nat.lt_of_succ_lt hn)).2)
    else outsAt c n (Nat.lt_of_succ_lt hn)

/-- At the first point: the first tile's contents. -/
theorem outsAt_A (c : Dev nD) (t : Fin cfg0.N) (h0 : t.val = 0) (h2 : t.val / 8 ≤ t.val % 8) :
    outsAt m c t.val t.isLt =
      (out_A_4 c (grid0.coords t) (ms0 t) (hs0 t) (ms1 t) (hs1 t) (ms2 t) (hs2 t) (ms3 t) (hs3 t) (ms4 t) (hs4 t) (ms5 t) (hs5 t) ((hcond1 t).mpr h0) ((hcond2 t).mpr h2) (iblk m c 0 t) (iblk m c 1 t) (iblk m c 2 t) (iblk m c 3 t),
       out_A_5 c (grid0.coords t) (ms0 t) (hs0 t) (ms1 t) (hs1 t) (ms2 t) (hs2 t) (ms3 t) (hs3 t) (ms4 t) (hs4 t) (ms5 t) (hs5 t) ((hcond1 t).mpr h0) ((hcond2 t).mpr h2) (iblk m c 0 t) (iblk m c 1 t) (iblk m c 2 t) (iblk m c 3 t)) := by
  obtain ⟨n, hn⟩ := t
  cases n with
  | zero => exact rfl
  | succ n => exact absurd h0 (Nat.succ_ne_zero n)

/-- At a later tile on or above the diagonal: that case's contents over what the position before left. -/
theorem outsAt_B (c : Dev nD) (t : Fin cfg0.N) (h0 : t.val ≠ 0) (h2 : t.val / 8 ≤ t.val % 8) :
    outsAt m c t.val t.isLt =
      (out_B_4 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h2) (iblk m c 0 t) (iblk m c 1 t) (iblk m c 2 t) (iblk m c 3 t)
          (outsAt m c (t.val - 1) (Nat.lt_of_le_of_lt (Nat.sub_le _ _) t.isLt)).1 (outsAt m c (t.val - 1) (Nat.lt_of_le_of_lt (Nat.sub_le _ _) t.isLt)).2,
       out_B_5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h2) (iblk m c 0 t) (iblk m c 1 t) (iblk m c 2 t) (iblk m c 3 t)
          (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact (dif_pos h2).trans rfl

/-- At a tile below the diagonal: what the position before left. -/
theorem outsAt_C (c : Dev nD) (t : Fin cfg0.N) (h0 : t.val ≠ 0) (h2 : ¬t.val / 8 ≤ t.val % 8) :
    outsAt m c t.val t.isLt = outsAt m c (t.val - 1) (Nat.lt_of_le_of_lt (Nat.sub_le _ _) t.isLt) := by
  obtain ⟨n, hn⟩ := t
  cases n with
  | zero => exact absurd rfl h0
  | succ n => exact (dif_neg h2).trans rfl

/-! ## The pipeline's proof data -/

/-- The arrays as the region finds them; after the body each input's buffer at its block and the accumulators' at `outsAt`;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the accumulators are idle, and never fresh after the first point -/

theorem idle4_live (t : Fin cfg0.N) (h2 : k0_cond2 (grid0.coords t) = 1#1) : cfg0.idle 4 (cfg0.grid.coords t) = false := by
  show (!(k0_cond1 (grid0.coords t) == 1#1) && !(k0_cond2 (grid0.coords t) == 1#1)) = false
  rw [h2]; simp
theorem idle5_live (t : Fin cfg0.N) (h2 : k0_cond2 (grid0.coords t) = 1#1) : cfg0.idle 5 (cfg0.grid.coords t) = false := by
  show (!(k0_cond1 (grid0.coords t) == 1#1) && !(k0_cond2 (grid0.coords t) == 1#1)) = false
  rw [h2]; simp
theorem idle4_skip (t : Fin cfg0.N) (h1 : ¬k0_cond1 (grid0.coords t) = 1#1) (h2 : ¬k0_cond2 (grid0.coords t) = 1#1) : cfg0.idle 4 (cfg0.grid.coords t) = true := by
  show (!(k0_cond1 (grid0.coords t) == 1#1) && !(k0_cond2 (grid0.coords t) == 1#1)) = true
  simp [h1, h2]
theorem idle5_skip (t : Fin cfg0.N) (h1 : ¬k0_cond1 (grid0.coords t) = 1#1) (h2 : ¬k0_cond2 (grid0.coords t) = 1#1) : cfg0.idle 5 (cfg0.grid.coords t) = true := by
  show (!(k0_cond1 (grid0.coords t) == 1#1) && !(k0_cond2 (grid0.coords t) == 1#1)) = true
  simp [h1, h2]

/-- An accumulator's buffer holds nothing the body stored only at the first point (and after the last). -/
theorem fresh4 : ∀ n, n ≤ cfg0.N → cfg0.fresh 4 n = (decide (n = 0) || decide (n = 64)) :=
  Pipeline.Cfg.fresh_tab cfg0 4 (fun n => decide (n = 0) || decide (n = 64)) rfl
    (by decide +kernel : ∀ t : Fin grid0.N, (decide (t.val + 1 = 0) || decide (t.val + 1 = 64)) = (win0_4.flush t || (idle0 4 (grid0.coords t) && (decide (t.val = 0) || decide (t.val = 64)))))
theorem fresh5 : ∀ n, n ≤ cfg0.N → cfg0.fresh 5 n = (decide (n = 0) || decide (n = 64)) :=
  Pipeline.Cfg.fresh_tab cfg0 5 (fun n => decide (n = 0) || decide (n = 64)) rfl
    (by decide +kernel : ∀ t : Fin grid0.N, (decide (t.val + 1 = 0) || decide (t.val + 1 = 64)) = (win0_5.flush t || (idle0 5 (grid0.coords t) && (decide (t.val = 0) || decide (t.val = 64)))))

/-- The stated contents carry through a below-diagonal tile. -/
theorem carry4 (c : Dev nD) (t : Fin cfg0.N) (h0 : t.val ≠ 0) (hi : cfg0.idle 4 (cfg0.grid.coords t) = true) :
    (dats m 0 c).after 4 t = (dats m 0 c).after 4 ⟨t.val - 1, Nat.lt_of_le_of_lt (Nat.sub_le _ _) t.isLt⟩ := by
  have h2 : ¬t.val / 8 ≤ t.val % 8 := fun h => by
    rw [idle4_live t ((hcond2 t).mpr h)] at hi; exact Bool.false_ne_true hi
  rw [after0_4, after0_4, outsAt_C m c t h0 h2]
theorem carry5 (c : Dev nD) (t : Fin cfg0.N) (h0 : t.val ≠ 0) (hi : cfg0.idle 5 (cfg0.grid.coords t) = true) :
    (dats m 0 c).after 5 t = (dats m 0 c).after 5 ⟨t.val - 1, Nat.lt_of_le_of_lt (Nat.sub_le _ _) t.isLt⟩ := by
  have h2 : ¬t.val / 8 ≤ t.val % 8 := fun h => by
    rw [idle5_live t ((hcond2 t).mpr h)] at hi; exact Bool.false_ne_true hi
  rw [after0_5, after0_5, outsAt_C m c t h0 h2]

/-- After the first point the body finds in each accumulator's buffer what the position before left. -/
theorem before0_4 (c : Dev nD) (t : Fin cfg0.N) (h0 : t.val ≠ 0) (d) :
    (dats m 0 c).before 4 t d = (outsAt m c (t.val - 1) (Nat.lt_of_le_of_lt (Nat.sub_le _ _) t.isLt)).1 := by
  have hN : t.val < 64 := lt_of_lt_of_eq t.isLt N_0
  rw [Dat.before_out_traj (dats m 0 c) 4 rfl (fun _ _ => rfl) (fun t h0 hi _ => carry4 m c t h0 hi) t.val t rfl d,
    fresh4 t.val (le_of_lt t.isLt), if_neg (by simp; omega), after0_4]
theorem before0_5 (c : Dev nD) (t : Fin cfg0.N) (h0 : t.val ≠ 0) (d) :
    (dats m 0 c).before 5 t d = (outsAt m c (t.val - 1) (Nat.lt_of_le_of_lt (Nat.sub_le _ _) t.isLt)).2 := by
  have hN : t.val < 64 := lt_of_lt_of_eq t.isLt N_0
  rw [Dat.before_out_traj (dats m 0 c) 5 rfl (fun _ _ => rfl) (fun t h0 hi _ => carry5 m c t h0 hi) t.val t rfl d,
    fresh5 t.val (le_of_lt t.isLt), if_neg (by simp; omega), after0_5]

end Cert.Kernel.Hand

end
-- ==== Proof.KBBody.lean ====
/-
  The body obligation of the pipeline at a generic grid point, the run of the program, and its frame.

  At a point the closed forms of the two conditions say which case the point is in. At the first tile the accumulators' buffers
  may hold anything and end at the first tile's contents; at a later tile on or above the diagonal they hold what the position
  before left and end at that case's contents over it; at a tile below the diagonal the body returns at once and every buffer
  is handed back as it was found. The inputs' buffers hold their blocks throughout, and the invariant passes through unread.
-/
import proofs.«137468_j7060926235085_1_alg».proof.Proof.KBFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns: an accumulator's buffer, at a point idle for it that does not write it back, as it was found. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (match cfg0.idle 4 (cfg0.grid.coords t) with
        | true =>
          match (cfg0.win 4).flush t with
          | false => iprop(∃ d, owns (c : Thread nD τ) (ms4 t) fullShare ((dats m 0 c).before 4 t d))
          | true => owns (c : Thread nD τ) (ms4 t) fullShare ((dats m 0 c).after 4 t)
        | false => owns (c : Thread nD τ) (ms4 t) fullShare ((dats m 0 c).after 4 t))
    ∗ (match cfg0.idle 5 (cfg0.grid.coords t) with
        | true =>
          match (cfg0.win 5).flush t with
          | false => iprop(∃ d, owns (c : Thread nD τ) (ms5 t) fullShare ((dats m 0 c).before 5 t d))
          | true => owns (c : Thread nD τ) (ms5 t) fullShare ((dats m 0 c).after 5 t)
        | false => owns (c : Thread nD τ) (ms5 t) fullShare ((dats m 0 c).after 5 t)))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt N_0
  by_cases h2 : t.val / 8 ≤ t.val % 8
  · have hc2 : k0_cond2 (grid0.coords t) = 1#1 := (hcond2 t).mpr h2
    have hi4 : idle0 4 (grid0.coords t) = false := idle4_live t hc2
    have hi5 : idle0 5 (grid0.coords t) = false := idle5_live t hc2
    rw [hi4]; try rw [hi5]
    dsimp only
    rw [after0_4, after0_5]
    by_cases h0 : t.val = 0
    · -- the first tile
      have hc1 : k0_cond1 (grid0.coords t) = 1#1 := (hcond1 t).mpr h0
      rw [outsAt_A m c t h0 h2]
      dsimp only
      unfold out_A_4 out_A_5
      iintro ⟨HΦ, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ hc1 hc2 (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_A_4 c _ _ _ _ _ _ _ _ _ _ _ _ _ _ _ _ _ _ _)
      · unfold owns; iexists _; isplitr
        swap; · iexact H5
        ipureintro; exact View.read_writes_of_cover _ _ _ _ _ (cover_A_5 c _ _ _ _ _ _ _ _ _ _ _ _ _ _ _ _ _ _ _)
    · -- a later tile on or above the diagonal
      have hc1 : ¬k0_cond1 (grid0.coords t) = 1#1 := fun h => h0 ((hcond1 t).mp h)
      rw [outsAt_B m c t h0 h2]
      dsimp only
      simp only [before0_4 m c t h0, before0_5 m c t h0]
      unfold out_B_4 out_B_5
      iintro ⟨HΦ, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ hc1 hc2 (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_B_4 c _ _ _ _ _ _ _ _ _ _ _ _ _ _ _ _ _ _ _ _ _)
      · unfold owns; iexists _; isplitr
        swap; · iexact H5
        ipureintro; exact View.read_writes_of_cover _ _ _ _ _ (cover_B_5 c _ _ _ _ _ _ _ _ _ _ _ _ _ _ _ _ _ _ _ _ _)
  · -- a tile below the diagonal: nothing is touched
    have h0 : t.val ≠ 0 := fun h => h2 (by rw [h])
    have hc1 : ¬k0_cond1 (grid0.coords t) = 1#1 := fun h => h0 ((hcond1 t).mp h)
    have hc2 : ¬k0_cond2 (grid0.coords t) = 1#1 := fun h => h2 ((hcond2 t).mp h)
    have hf4 : (win0 4).flush t = false := Bool.eq_false_iff.mpr fun h => by
      have := (flush0_4 t).mp h; omega
    have hf5 : (win0 5).flush t = false := Bool.eq_false_iff.mpr fun h => by
      have := (flush0_5 t).mp h; omega
    have hi4 : idle0 4 (grid0.coords t) = true := idle4_skip t hc1 hc2
    have hi5 : idle0 5 (grid0.coords t) = true := idle5_skip t hc1 hc2
    rw [hi4]; try rw [hi5]
    rw [hf4, hf5]
    dsimp only
    iintro ⟨HΦ, Ho, ⟨%d0, H0⟩, ⟨%d1, H1⟩, ⟨%d2, H2⟩, ⟨%d3, H3⟩, ⟨%d4, H4⟩, ⟨%d5, H5⟩⟩
    iapply (kernelRun_C c (grid0.coords t) _ _ _ _ _ _ _ _ _ _ _ _ hc1 hc2 Set.univ _)
    isplitl [HΦ]; · iexact HΦ
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from the
    proof data, and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- THE FRAME: the program runs, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIRuns.lean ====
/-
  The kernel body, run once per control case.

  The body has two conditionals on the grid point `(i, j)`: the first (`i = 0 ∧ j = 0`) zeroes the two 1×1 accumulators, the
  second (`i ≤ j`) loads the four input blocks and both accumulators, and stores each accumulator plus the tile's sum. Over
  the 8 × 8 grid three assignments of the two conditions occur:
  * the first tile (both hold): the accumulators are zeroed, then added to;
  * a later tile on or above the diagonal (only the second holds): the accumulators are read at what the tile before left;
  * a tile strictly below the diagonal (neither holds): the body touches nothing.
  For each case the run states: on whole staging buffers, the inputs at their contents, the body runs to its continuation with
  the inputs as they were and each accumulator's buffer at the pieces its stores wrote (the pieces are found by the run).
-/
import proofs.«137468_j7060926235085_1_alg».proof.Proof.Gen.KernelIdeal.Frame
import proofs.«137468_j7060926235085_1_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid, in closed form -/

/-- The first condition holds at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- The second condition holds where the tile row `t / 8` is not past the tile column `t % 8`. -/
theorem hcond2 : ∀ t : Fin cfg0.N, k0_cond2 (grid0.coords t) = 1#1 ↔ t.val / 8 ≤ t.val % 8 :=
  (by decide +kernel : ∀ t : Fin grid0.N, k0_cond2 (grid0.coords t) = 1#1 ↔ t.val / 8 ≤ t.val % 8)

/-- The grid is walked in row-major order. -/
theorem hcoord0 : ∀ t : Fin cfg0.N, (grid0.coords t 0).val = t.val / 8 :=
  (by decide +kernel : ∀ t : Fin grid0.N, (grid0.coords t 0).val = t.val / 8)
theorem hcoord1 : ∀ t : Fin cfg0.N, (grid0.coords t 1).val = t.val % 8 :=
  (by decide +kernel : ∀ t : Fin grid0.N, (grid0.coords t 1).val = t.val % 8)

/-! ## The body on any staging memrefs -/

set_option maxHeartbeats 1000000 in
/-- The first tile: both conditionals taken. The accumulators' buffers may hold anything. -/
noncomputable def kernelRun_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : k0_cond1 i = 1#1) (hc2 : k0_cond2 i = 1#1)
    (x0 : Vec F S1024x1 .f32) (x1 : Vec F S1x1024 .f32) (x2 : Vec F S1024x1 .f32) (x3 : Vec F S1x1024 .f32) :
    Σ' (L4 : List (View.Piece (Elt F) S1x1 .f32)) (L5 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_loss_kernel i arg2 harg2 arg3 harg3 arg4 harg4 arg5 harg5 arg6 harg6 arg7 harg7) K := by
  refine ⟨?_, ?_, fun E K => ?run⟩
  case run =>
    simp only [cc0__pairwise_loss_kernel_eq_skeleton]; unfold cc0__pairwise_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 1000000 in
/-- A later tile on or above the diagonal: only the second conditional taken. The accumulators' buffers hold `xo4`, `xo5`. -/
noncomputable def kernelRun_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : ¬k0_cond1 i = 1#1) (hc2 : k0_cond2 i = 1#1)
    (x0 : Vec F S1024x1 .f32) (x1 : Vec F S1x1024 .f32) (x2 : Vec F S1024x1 .f32) (x3 : Vec F S1x1024 .f32)
    (xo4 : Vec F S1x1 .f32) (xo5 : Vec F S1x1 .f32) :
    Σ' (L4 : List (View.Piece (Elt F) S1x1 .f32)) (L5 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)) -∗ K ⟨⟩))
          ⊢ wp frame (wpE (defs₀ (F := F)) Variants.none c none) E (cc0__pairwise_loss_kernel i arg2 harg2 arg3 harg3 arg4 harg4 arg5 harg5 arg6 harg6 arg7 harg7) K := by
  refine ⟨?_, ?_, fun E K => ?run⟩
  case run =>
    simp only [cc0__pairwise_loss_kernel_eq_skeleton]; unfold cc0__pairwise_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-- A tile strictly below the diagonal: neither conditional taken; the body returns at once, touching nothing. -/
theorem kernelRun_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole)
    (hc1 : ¬k0_cond1 i = 1#1) (hc2 : ¬k0_cond2 i = 1#1) (E : Set ℕ) (K : PUnit → sProp 𝕄) :
    K ⟨⟩ ⊢ wp frame (wpE (defs₀ (F := F)) Variants.none c none) E (cc0__pairwise_loss_kernel i arg2 harg2 arg3 harg3 arg4 harg4 arg5 harg5 arg6 harg6 arg7 harg7) K := by
  simp only [cc0__pairwise_loss_kernel_eq_skeleton]; unfold cc0__pairwise_loss_kernel_skel
  iintro Hk
  sl_exec (disch := first | exact hc1 | exact hc2)
  sl_step
  iexact Hk

end Cert.KernelIdeal.Hand

end
-- ==== Proof.KIFrame.lean ====
/-
  The frame of the program: the proof data of its one pipeline, the body obligation at every grid point, the run.

  The two 1×1 accumulators are outputs whose block never moves: they are written back after the last point only. What they hold
  after the body at position `n` is stated by recursion on `n` (`outsAt`): the first tile's run at position 0; at a later tile on
  or above the diagonal that case's run over what position `n - 1` left; at a tile below the diagonal — where the body stores
  nothing — what position `n - 1` left, unchanged. The body finds in an accumulator's buffer what the position before left,
  however many below-diagonal tiles lie between (the buffer is never fresh after the first point).
-/
import proofs.«137468_j7060926235085_1_alg».proof.Proof.KIRuns
import Idealize.ShloMosaic.Lib.Pipeline.TableIdle

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator, through which its contents are stated (the choice does not matter). -/
abbrev VO4 : View sig .tc .vmem S1x1 .f32 := (Memref.whole cc0_stg4_0 : Memref sig .tc .vmem S1x1 .f32).view
abbrev VO5 : View sig .tc .vmem S1x1 .f32 := (Memref.whole cc0_stg5_0 : Memref sig .tc .vmem S1x1 .f32).view

/-- Each window's current staging memref at point `t`, as the pipeline passes it, and its wholeness. -/
abbrev ms0 (t : Fin cfg0.N) : Memref sig .tc .vmem S1024x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)

/-! ## What each case leaves in the accumulators -/

/-- The first tile's stores into the first accumulator cover its one cell. -/
theorem cover_A_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) (y : S1x1.Idx) :
    ∃ pc ∈ (kernelRun_A c i arg2 harg2 arg3 harg3 arg4 harg4 arg5 harg5 arg6 harg6 arg7 harg7 hc1 hc2 x0 x1 x2 x3).1, y ∈ pc.1.set :=
  View.cover_of_tiledL (kernelRun_A c i arg2 harg2 arg3 harg3 arg4 harg4 arg5 harg5 arg6 harg6 arg7 harg7 hc1 hc2 x0 x1 x2 x3).1 S1x1.size (by sl_kernel_rfl) y
theorem cover_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) (y : S1x1.Idx) :
    ∃ pc ∈ (kernelRun_A c i arg2 harg2 arg3 harg3 arg4 harg4 arg5 harg5 arg6 harg6 arg7 harg7 hc1 hc2 x0 x1 x2 x3).2.1, y ∈ pc.1.set :=
  View.cover_of_tiledL (kernelRun_A c i arg2 harg2 arg3 harg3 arg4 harg4 arg5 harg5 arg6 harg6 arg7 harg7 hc1 hc2 x0 x1 x2 x3).2.1 S1x1.size (by sl_kernel_rfl) y
/-- What the first tile leaves in each accumulator: its pieces read back. -/
def out_A_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) : Vec F S1x1 .f32 :=
  VO4.read (Elt F) (VO4.writes (Elt F) VO4.junk (kernelRun_A c i arg2 harg2 arg3 harg3 arg4 harg4 arg5 harg5 arg6 harg6 arg7 harg7 hc1 hc2 x0 x1 x2 x3).1)
def out_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) : Vec F S1x1 .f32 :=
  VO5.read (Elt F) (VO5.writes (Elt F) VO5.junk (kernelRun_A c i arg2 harg2 arg3 harg3 arg4 harg4 arg5 harg5 arg6 harg6 arg7 harg7 hc1 hc2 x0 x1 x2 x3).2.1)

/-- A later tile's stores cover each accumulator's one cell. -/
theorem cover_B_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) (y : S1x1.Idx) :
    ∃ pc ∈ (kernelRun_B c i arg2 harg2 arg3 harg3 arg4 harg4 arg5 harg5 arg6 harg6 arg7 harg7 hc1 hc2 x0 x1 x2 x3 xo4 xo5).1, y ∈ pc.1.set :=
  View.cover_of_tiledL (kernelRun_B c i arg2 harg2 arg3 harg3 arg4 harg4 arg5 harg5 arg6 harg6 arg7 harg7 hc1 hc2 x0 x1 x2 x3 xo4 xo5).1 S1x1.size (by sl_kernel_rfl) y
theorem cover_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) (y : S1x1.Idx) :
    ∃ pc ∈ (kernelRun_B c i arg2 harg2 arg3 harg3 arg4 harg4 arg5 harg5 arg6 harg6 arg7 harg7 hc1 hc2 x0 x1 x2 x3 xo4 xo5).2.1, y ∈ pc.1.set :=
  View.cover_of_tiledL (kernelRun_B c i arg2 harg2 arg3 harg3 arg4 harg4 arg5 harg5 arg6 harg6 arg7 harg7 hc1 hc2 x0 x1 x2 x3 xo4 xo5).2.1 S1x1.size (by sl_kernel_rfl) y
/-- What a later tile on or above the diagonal leaves in each accumulator, over what it found (`xo4`, `xo5`). -/
def out_B_4 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) : Vec F S1x1 .f32 :=
  VO4.read (Elt F) (VO4.writes (Elt F) VO4.junk (kernelRun_B c i arg2 harg2 arg3 harg3 arg4 harg4 arg5 harg5 arg6 harg6 arg7 harg7 hc1 hc2 x0 x1 x2 x3 xo4 xo5).1)
def out_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) : Vec F S1x1 .f32 :=
  VO5.read (Elt F) (VO5.writes (Elt F) VO5.junk (kernelRun_B c i arg2 harg2 arg3 harg3 arg4 harg4 arg5 harg5 arg6 harg6 arg7 harg7 hc1 hc2 x0 x1 x2 x3 xo4 xo5).2.1)

/-! ## The accumulators after each position -/

/-- THE ACCUMULATION: what the two accumulators' buffers hold after the body at position `n`. -/
def outsAt (c : Dev nD) : (n : ℕ) → n < cfg0.N → Vec F S1x1 .f32 × Vec F S1x1 .f32
  | 0, hn =>
    (out_A_4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr rfl) ((hcond2 ⟨0, hn⟩).mpr (show (0 : ℕ) / 8 ≤ 0 % 8 by decide)) (iblk m c 0 ⟨0, hn⟩) (iblk m c 1 ⟨0, hn⟩) (iblk m c 2 ⟨0, hn⟩) (iblk m c 3 ⟨0, hn⟩),
     out_A_5 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((hcond1 ⟨0, hn⟩).mpr rfl) ((hcond2 ⟨0, hn⟩).mpr (show (0 : ℕ) / 8 ≤ 0 % 8 by decide)) (iblk m c 0 ⟨0, hn⟩) (iblk m c 1 ⟨0, hn⟩) (iblk m c 2 ⟨0, hn⟩) (iblk m c 3 ⟨0, hn⟩))
  | n + 1, hn =>
    if h2 : (n + 1) / 8 ≤ (n + 1) % 8 then
      (out_B_4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩)
          (outsAt c n (Nat.lt_of_succ_lt hn)).1 (outsAt c n (Nat.lt_of_succ_lt hn)).2,
       out_B_5 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => Nat.succ_ne_zero n ((hcond1 ⟨n + 1, hn⟩).mp h)) ((hcond2 ⟨n + 1, hn⟩).mpr h2) (iblk m c 0 ⟨n + 1, hn⟩) (iblk m c 1 ⟨n + 1, hn⟩) (iblk m c 2 ⟨n + 1, hn⟩) (iblk m c 3 ⟨n + 1, hn⟩)
          (outsAt c n (Nat.lt_of_succ_lt hn)).1 (outsAt c n (Nat.lt_of_succ_lt hn)).2)
    else outsAt c n (Nat.lt_of_succ_lt hn)

/-- At the first point: the first tile's contents. -/
theorem outsAt_A (c : Dev nD) (t : Fin cfg0.N) (h0 : t.val = 0) (h2 : t.val / 8 ≤ t.val % 8) :
    outsAt m c t.val t.isLt =
      (out_A_4 c (grid0.coords t) (ms0 t) (hs0 t) (ms1 t) (hs1 t) (ms2 t) (hs2 t) (ms3 t) (hs3 t) (ms4 t) (hs4 t) (ms5 t) (hs5 t) ((hcond1 t).mpr h0) ((hcond2 t).mpr h2) (iblk m c 0 t) (iblk m c 1 t) (iblk m c 2 t) (iblk m c 3 t),
       out_A_5 c (grid0.coords t) (ms0 t) (hs0 t) (ms1 t) (hs1 t) (ms2 t) (hs2 t) (ms3 t) (hs3 t) (ms4 t) (hs4 t) (ms5 t) (hs5 t) ((hcond1 t).mpr h0) ((hcond2 t).mpr h2) (iblk m c 0 t) (iblk m c 1 t) (iblk m c 2 t) (iblk m c 3 t)) := by
  obtain ⟨n, hn⟩ := t
  cases n with
  | zero => exact rfl
  | succ n => exact absurd h0 (Nat.succ_ne_zero n)

/-- At a later tile on or above the diagonal: that case's contents over what the position before left. -/
theorem outsAt_B (c : Dev nD) (t : Fin cfg0.N) (h0 : t.val ≠ 0) (h2 : t.val / 8 ≤ t.val % 8) :
    outsAt m c t.val t.isLt =
      (out_B_4 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h2) (iblk m c 0 t) (iblk m c 1 t) (iblk m c 2 t) (iblk m c 3 t)
          (outsAt m c (t.val - 1) (Nat.lt_of_le_of_lt (Nat.sub_le _ _) t.isLt)).1 (outsAt m c (t.val - 1) (Nat.lt_of_le_of_lt (Nat.sub_le _ _) t.isLt)).2,
       out_B_5 c (grid0.coords t) (ms0 t) (hs0 t) (ms1 t) (hs1 t) (ms2 t) (hs2 t) (ms3 t) (hs3 t) (ms4 t) (hs4 t) (ms5 t) (hs5 t) (fun h => h0 ((hcond1 t).mp h)) ((hcond2 t).mpr h2) (iblk m c 0 t) (iblk m c 1 t) (iblk m c 2 t) (iblk m c 3 t)
          (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact absurd rfl h0
  | succ n => exact (dif_pos h2).trans rfl

/-- At a tile below the diagonal: what the position before left. -/
theorem outsAt_C (c : Dev nD) (t : Fin cfg0.N) (h0 : t.val ≠ 0) (h2 : ¬t.val / 8 ≤ t.val % 8) :
    outsAt m c t.val t.isLt = outsAt m c (t.val - 1) (Nat.lt_of_le_of_lt (Nat.sub_le _ _) t.isLt) := by
  obtain ⟨n, hn⟩ := t
  cases n with
  | zero => exact absurd rfl h0
  | succ n => exact (dif_neg h2).trans rfl

/-! ## The pipeline's proof data -/

/-- The arrays as the region finds them; after the body each input's buffer at its block and the accumulators' at `outsAt`;
    the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the accumulators are idle, and never fresh after the first point -/

theorem idle4_live (t : Fin cfg0.N) (h2 : k0_cond2 (grid0.coords t) = 1#1) : cfg0.idle 4 (cfg0.grid.coords t) = false := by
  show (!(k0_cond1 (grid0.coords t) == 1#1) && !(k0_cond2 (grid0.coords t) == 1#1)) = false
  rw [h2]; simp
theorem idle5_live (t : Fin cfg0.N) (h2 : k0_cond2 (grid0.coords t) = 1#1) : cfg0.idle 5 (cfg0.grid.coords t) = false := by
  show (!(k0_cond1 (grid0.coords t) == 1#1) && !(k0_cond2 (grid0.coords t) == 1#1)) = false
  rw [h2]; simp
theorem idle4_skip (t : Fin cfg0.N) (h1 : ¬k0_cond1 (grid0.coords t) = 1#1) (h2 : ¬k0_cond2 (grid0.coords t) = 1#1) : cfg0.idle 4 (cfg0.grid.coords t) = true := by
  show (!(k0_cond1 (grid0.coords t) == 1#1) && !(k0_cond2 (grid0.coords t) == 1#1)) = true
  simp [h1, h2]
theorem idle5_skip (t : Fin cfg0.N) (h1 : ¬k0_cond1 (grid0.coords t) = 1#1) (h2 : ¬k0_cond2 (grid0.coords t) = 1#1) : cfg0.idle 5 (cfg0.grid.coords t) = true := by
  show (!(k0_cond1 (grid0.coords t) == 1#1) && !(k0_cond2 (grid0.coords t) == 1#1)) = true
  simp [h1, h2]

/-- An accumulator's buffer holds nothing the body stored only at the first point (and after the last). -/
theorem fresh4 : ∀ n, n ≤ cfg0.N → cfg0.fresh 4 n = (decide (n = 0) || decide (n = 64)) :=
  Pipeline.Cfg.fresh_tab cfg0 4 (fun n => decide (n = 0) || decide (n = 64)) rfl
    (by decide +kernel : ∀ t : Fin grid0.N, (decide (t.val + 1 = 0) || decide (t.val + 1 = 64)) = (win0_4.flush t || (idle0 4 (grid0.coords t) && (decide (t.val = 0) || decide (t.val = 64)))))
theorem fresh5 : ∀ n, n ≤ cfg0.N → cfg0.fresh 5 n = (decide (n = 0) || decide (n = 64)) :=
  Pipeline.Cfg.fresh_tab cfg0 5 (fun n => decide (n = 0) || decide (n = 64)) rfl
    (by decide +kernel : ∀ t : Fin grid0.N, (decide (t.val + 1 = 0) || decide (t.val + 1 = 64)) = (win0_5.flush t || (idle0 5 (grid0.coords t) && (decide (t.val = 0) || decide (t.val = 64)))))

/-- The stated contents carry through a below-diagonal tile. -/
theorem carry4 (c : Dev nD) (t : Fin cfg0.N) (h0 : t.val ≠ 0) (hi : cfg0.idle 4 (cfg0.grid.coords t) = true) :
    (dats m 0 c).after 4 t = (dats m 0 c).after 4 ⟨t.val - 1, Nat.lt_of_le_of_lt (Nat.sub_le _ _) t.isLt⟩ := by
  have h2 : ¬t.val / 8 ≤ t.val % 8 := fun h => by
    rw [idle4_live t ((hcond2 t).mpr h)] at hi; exact Bool.false_ne_true hi
  rw [after0_4, after0_4, outsAt_C m c t h0 h2]
theorem carry5 (c : Dev nD) (t : Fin cfg0.N) (h0 : t.val ≠ 0) (hi : cfg0.idle 5 (cfg0.grid.coords t) = true) :
    (dats m 0 c).after 5 t = (dats m 0 c).after 5 ⟨t.val - 1, Nat.lt_of_le_of_lt (Nat.sub_le _ _) t.isLt⟩ := by
  have h2 : ¬t.val / 8 ≤ t.val % 8 := fun h => by
    rw [idle5_live t ((hcond2 t).mpr h)] at hi; exact Bool.false_ne_true hi
  rw [after0_5, after0_5, outsAt_C m c t h0 h2]

/-- After the first point the body finds in each accumulator's buffer what the position before left. -/
theorem before0_4 (c : Dev nD) (t : Fin cfg0.N) (h0 : t.val ≠ 0) (d) :
    (dats m 0 c).before 4 t d = (outsAt m c (t.val - 1) (Nat.lt_of_le_of_lt (Nat.sub_le _ _) t.isLt)).1 := by
  have hN : t.val < 64 := lt_of_lt_of_eq t.isLt N_0
  rw [Dat.before_out_traj (dats m 0 c) 4 rfl (fun _ _ => rfl) (fun t h0 hi _ => carry4 m c t h0 hi) t.val t rfl d,
    fresh4 t.val (le_of_lt t.isLt), if_neg (by simp; omega), after0_4]
theorem before0_5 (c : Dev nD) (t : Fin cfg0.N) (h0 : t.val ≠ 0) (d) :
    (dats m 0 c).before 5 t d = (outsAt m c (t.val - 1) (Nat.lt_of_le_of_lt (Nat.sub_le _ _) t.isLt)).2 := by
  have hN : t.val < 64 := lt_of_lt_of_eq t.isLt N_0
  rw [Dat.before_out_traj (dats m 0 c) 5 rfl (fun _ _ => rfl) (fun t h0 hi _ => carry5 m c t h0 hi) t.val t rfl d,
    fresh5 t.val (le_of_lt t.isLt), if_neg (by simp; omega), after0_5]

end Cert.KernelIdeal.Hand

end
-- ==== Proof.KIBody.lean ====
/-
  The body obligation of the pipeline at a generic grid point, the run of the program, and its frame.

  At a point the closed forms of the two conditions say which case the point is in. At the first tile the accumulators' buffers
  may hold anything and end at the first tile's contents; at a later tile on or above the diagonal they hold what the position
  before left and end at that case's contents over it; at a tile below the diagonal the body returns at once and every buffer
  is handed back as it was found. The inputs' buffers hold their blocks throughout, and the invariant passes through unread.
-/
import proofs.«137468_j7060926235085_1_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns: an accumulator's buffer, at a point idle for it that does not write it back, as it was found. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (match cfg0.idle 4 (cfg0.grid.coords t) with
        | true =>
          match (cfg0.win 4).flush t with
          | false => iprop(∃ d, owns (c : Thread nD τ) (ms4 t) fullShare ((dats m 0 c).before 4 t d))
          | true => owns (c : Thread nD τ) (ms4 t) fullShare ((dats m 0 c).after 4 t)
        | false => owns (c : Thread nD τ) (ms4 t) fullShare ((dats m 0 c).after 4 t))
    ∗ (match cfg0.idle 5 (cfg0.grid.coords t) with
        | true =>
          match (cfg0.win 5).flush t with
          | false => iprop(∃ d, owns (c : Thread nD τ) (ms5 t) fullShare ((dats m 0 c).before 5 t d))
          | true => owns (c : Thread nD τ) (ms5 t) fullShare ((dats m 0 c).after 5 t)
        | false => owns (c : Thread nD τ) (ms5 t) fullShare ((dats m 0 c).after 5 t)))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 64 := lt_of_lt_of_eq t.isLt N_0
  by_cases h2 : t.val / 8 ≤ t.val % 8
  · have hc2 : k0_cond2 (grid0.coords t) = 1#1 := (hcond2 t).mpr h2
    have hi4 : idle0 4 (grid0.coords t) = false := idle4_live t hc2
    have hi5 : idle0 5 (grid0.coords t) = false := idle5_live t hc2
    rw [hi4]; try rw [hi5]
    dsimp only
    rw [after0_4, after0_5]
    by_cases h0 : t.val = 0
    · -- the first tile
      have hc1 : k0_cond1 (grid0.coords t) = 1#1 := (hcond1 t).mpr h0
      rw [outsAt_A m c t h0 h2]
      dsimp only
      unfold out_A_4 out_A_5
      iintro ⟨HΦ, Ho, ⟨%d0, H0⟩, ⟨%d1, H1⟩, ⟨%d2, H2⟩, ⟨%d3, H3⟩, ⟨%d4, H4⟩, ⟨%d5, H5⟩⟩
      iapply ((kernelRun_A c (grid0.coords t) _ _ _ _ _ _ _ _ _ _ _ _ hc1 hc2 (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_A_4 c _ _ _ _ _ _ _ _ _ _ _ _ _ _ _ _ _ _ _)
      · unfold owns; iexists _; isplitr
        swap; · iexact H5
        ipureintro; exact View.read_writes_of_cover _ _ _ _ _ (cover_A_5 c _ _ _ _ _ _ _ _ _ _ _ _ _ _ _ _ _ _ _)
    · -- a later tile on or above the diagonal
      have hc1 : ¬k0_cond1 (grid0.coords t) = 1#1 := fun h => h0 ((hcond1 t).mp h)
      rw [outsAt_B m c t h0 h2]
      dsimp only
      simp only [before0_4 m c t h0, before0_5 m c t h0]
      unfold out_B_4 out_B_5
      iintro ⟨HΦ, Ho, ⟨%d0, H0⟩, ⟨%d1, H1⟩, ⟨%d2, H2⟩, ⟨%d3, H3⟩, ⟨%d4, H4⟩, ⟨%d5, H5⟩⟩
      iapply ((kernelRun_B c (grid0.coords t) _ _ _ _ _ _ _ _ _ _ _ _ hc1 hc2 (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, ⟨%e4, H4⟩, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_B_4 c _ _ _ _ _ _ _ _ _ _ _ _ _ _ _ _ _ _ _ _ _)
      · unfold owns; iexists _; isplitr
        swap; · iexact H5
        ipureintro; exact View.read_writes_of_cover _ _ _ _ _ (cover_B_5 c _ _ _ _ _ _ _ _ _ _ _ _ _ _ _ _ _ _ _ _ _)
  · -- a tile below the diagonal: nothing is touched
    have h0 : t.val ≠ 0 := fun h => h2 (by rw [h])
    have hc1 : ¬k0_cond1 (grid0.coords t) = 1#1 := fun h => h0 ((hcond1 t).mp h)
    have hc2 : ¬k0_cond2 (grid0.coords t) = 1#1 := fun h => h2 ((hcond2 t).mp h)
    have hf4 : (win0 4).flush t = false := Bool.eq_false_iff.mpr fun h => by
      have := (flush0_4 t).mp h; omega
    have hf5 : (win0 5).flush t = false := Bool.eq_false_iff.mpr fun h => by
      have := (flush0_5 t).mp h; omega
    have hi4 : idle0 4 (grid0.coords t) = true := idle4_skip t hc1 hc2
    have hi5 : idle0 5 (grid0.coords t) = true := idle5_skip t hc1 hc2
    rw [hi4]; try rw [hi5]
    rw [hf4, hf5]
    dsimp only
    iintro ⟨HΦ, Ho, ⟨%d0, H0⟩, ⟨%d1, H1⟩, ⟨%d2, H2⟩, ⟨%d3, H3⟩, ⟨%d4, H4⟩, ⟨%d5, H5⟩⟩
    iapply (kernelRun_C c (grid0.coords t) _ _ _ _ _ _ _ _ _ _ _ _ hc1 hc2 Set.univ _)
    isplitl [HΦ]; · iexact HΦ
    isplitl [Ho]; · iexact Ho
    isplitl [H0]; · iexact H0
    isplitl [H1]; · iexact H1
    isplitl [H2]; · iexact H2
    isplitl [H3]; · iexact H3
    isplitl [H4]; · iexists _; iexact H4
    iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline ends at what the library computes from the
    proof data, and every other unscoped buffer as the host operations after the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- THE FRAME: the program runs, faults nowhere, and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KIOuts.lean ====
/-
  What each case of the body leaves in the two accumulators, as the body's own arithmetic: the stored payload over the loaded
  input blocks — and, at the first tile, over the zero the reset had just stored (read back through the store that covers it).
-/
import proofs.«137468_j7060926235085_1_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : (![0, 0] : Fin 2 → Nat) = fun _ => 0 := funext fun a => by fin_cases a <;> rfl

/-- A later tile leaves, in the first accumulator holding `xo4`, `xo4` plus the sum of the tile's masked hinges. -/
theorem out_B_4_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) :
    out_B_4 c i arg2 harg2 arg3 harg3 arg4 harg4 arg5 harg5 arg6 harg6 arg7 harg7 hc1 hc2 x0 x1 x2 x3 xo4 xo5 = k0_pay3 (k0_pay7 (BitVec.ofNat 32 (i 0).val) (BitVec.ofNat 32 (i 1).val) x0 x1 x2 x3) xo4 := by
  unfold out_B_4
  rw [View.read_writes_eq_canon _ _ _ (cover_B_4 c i arg2 harg2 arg3 harg3 arg4 harg4 arg5 harg5 arg6 harg6 arg7 harg7 hc1 hc2 x0 x1 x2 x3 xo4 xo5)]
  unfold kernelRun_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x1) hz, View.ld_unit_zero (S := S1x1024) hz, View.ld_unit_zero (S := S1x1) hz]

/-- A later tile leaves, in the second accumulator holding `xo5`, `xo5` plus the number of the tile's counting pairs. -/
theorem out_B_5_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : ¬k0_cond1 i = 1#1) (hc2 : k0_cond2 i = 1#1) (x0 : Vec F S1024x1 .f32) (x1 : Vec F S1x1024 .f32) (x2 : Vec F S1024x1 .f32) (x3 : Vec F S1x1024 .f32) (xo4 xo5 : Vec F S1x1 .f32) :
    out_B_5 c i arg2 harg2 arg3 harg3 arg4 harg4 arg5 harg5 arg6 harg6 arg7 harg7 hc1 hc2 x0 x1 x2 x3 xo4 xo5 = k0_pay4 (k0_pay6 (BitVec.ofNat 32 (i 0).val) (BitVec.ofNat 32 (i 1).val) x2 x3) xo5 := by
  unfold out_B_5
  rw [View.read_writes_eq_canon _ _ _ (cover_B_5 c i arg2 harg2 arg3 harg3 arg4 harg4 arg5 harg5 arg6 harg6 arg7 harg7 hc1 hc2 x0 x1 x2 x3 xo4 xo5)]
  unfold kernelRun_B
  dsimp only
  sl_unfold_words
  rw [View.canon_unit_zero hz]
  simp only [View.readAt_eq_ld, harg2.read_unread, harg3.read_unread, harg4.read_unread, harg5.read_unread, harg6.read_unread, harg7.read_unread, View.ld_unit_zero (S := S1024x1) hz, View.ld_unit_zero (S := S1x1024) hz, View.ld_unit_zero (S := S1x1) hz]

/-- The first tile leaves, in the first accumulator, the stored zero plus the sum of the tile's masked hinges. -/
theorem out_A_4_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) :
    out_A_4 c i arg2 harg2 arg3 harg3 arg4 harg4 arg5 harg5 arg6 harg6 arg7 harg7 hc1 hc2 x0 x1 x2 x3 = k0_pay3 (k0_pay7 (BitVec.ofNat 32 (i 0).val) (BitVec.ofNat 32 (i 1).val) x0 x1 x2 x3) k0_pay1 := by
  unfold out_A_4
  rw [View.read_writes_eq_canon _ _ _ (cover_A_4 c i arg2 harg2 arg3 harg3 arg4 harg4 arg5 harg5 arg6 harg6 arg7 harg7 hc1 hc2 x0 x1 x2 x3)]
  unfold kernelRun_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, View.ld_unit_zero (S := S1024x1) hz, View.ld_unit_zero (S := S1x1024) hz, View.ld_unit_zero (S := S1x1) hz]

/-- The first tile leaves, in the second accumulator, the stored zero plus the number of the tile's counting pairs. -/
theorem out_A_5_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc1 : k0_cond1 i = 1#1) (hc2 : k0_cond2 i = 1#1) (x0 : Vec F S1024x1 .f32) (x1 : Vec F S1x1024 .f32) (x2 : Vec F S1024x1 .f32) (x3 : Vec F S1x1024 .f32) :
    out_A_5 c i arg2 harg2 arg3 harg3 arg4 harg4 arg5 harg5 arg6 harg6 arg7 harg7 hc1 hc2 x0 x1 x2 x3 = k0_pay4 (k0_pay6 (BitVec.ofNat 32 (i 0).val) (BitVec.ofNat 32 (i 1).val) x2 x3) k0_pay2 := by
  unfold out_A_5
  rw [View.read_writes_eq_canon _ _ _ (cover_A_5 c i arg2 harg2 arg3 harg3 arg4 harg4 arg5 harg5 arg6 harg6 arg7 harg7 hc1 hc2 x0 x1 x2 x3)]
  unfold kernelRun_A
  dsimp only
  sl_unfold_words
  rw [View.canon_cons_unit_zero (S := S1x1) hz]
  simp only [View.readCov_unit_zero (S := S1x1) _ hz, View.readAt_eq_ld, harg2.read_unread, harg3.read_unread, harg4.read_unread, harg5.read_unread, harg6.read_unread, harg7.read_unread, View.ld_unit_zero (S := S1024x1) hz, View.ld_unit_zero (S := S1x1024) hz, View.ld_unit_zero (S := S1x1) hz]

end Cert.KernelIdeal.Hand

end
-- ==== Proof.KIFinal.lean ====
/-
  The two result arrays after the run: each 1×1 array is written back once, after the last grid point, and then holds what
  the last point left in its accumulator.
-/
import proofs.«137468_j7060926235085_1_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- the recursion is never to be unfolded at a literal position: only its equations are used
attribute [local irreducible] outsAt

/-- The last grid point. -/
abbrev tLast : Fin cfg0.N := ⟨63, by rw [show cfg0.N = 64 from N_0]; decide⟩

/-- The accumulators after a position depend on the position only. -/
theorem outsAt_congr (c : Dev nD) (n n' : ℕ) (h : n < cfg0.N) (h' : n' < cfg0.N) (e : n = n') : outsAt m c n h = outsAt m c n' h' := by
  subst e; rfl

/-- What the last point leaves in each accumulator, as contents of its result array (its one block IS the array). -/
abbrev result4 (c : Dev nD) : Buf (Elt F) ((c : Thread nD τ).loc main_v16_0) := (outsAt m c 63 tLast.isLt).1
abbrev result5 (c : Dev nD) : Buf (Elt F) ((c : Thread nD τ).loc main_v16_1) := (outsAt m c 63 tLast.isLt).2

/-- Accumulator one's block index is (0, 0) at every point, and its block is the whole 1×1 array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem xsize4 : ∀ t : Fin cfg0.N, win0_4.xsize (grid0.coords t) (0 : Fin 2) = 1 ∧ win0_4.xsize (grid0.coords t) (1 : Fin 2) = 1 :=
  (by decide +kernel : ∀ t : Fin grid0.N, win0_4.xsize (grid0.coords t) (0 : Fin 2) = 1 ∧ win0_4.xsize (grid0.coords t) (1 : Fin 2) = 1)

/-- The one write-back of accumulator one, at the last point, writes what that point left: block (0, 0) of the 1×1 array is the array. -/
theorem flushed4 (c : Dev nD) (t : Fin cfg0.N) (hf : (cfg0.win 4).flush t = true) :
    (dats m 0 c).flushed 4 t = ((cfg0.win 4).blk t).view.read (Elt F) (result4 m c) := by
  have hN : cfg0.N = 64 := N_0
  have h63 : t.val = 63 := by have := (flush0_4 t).mp hf; have := t.isLt; omega
  show (cfg0.win 4).cut (grid0.coords t) ((dats m 0 c).after 4 t) = _
  rw [after0_4, outsAt_congr m c t.val 63 t.isLt tLast.isLt h63]
  show (cfg0.win 4).cut (grid0.coords t) (result4 m c) = ((cfg0.win 4).blk t).view.read (Elt F) (result4 m c)
  have hz' : (fun a => win0_4.index t a * main_v16_0.ty.shape.size a) = fun _ => 0 := funext fun a => by
    fin_cases a
    · show win0_4.index t (0 : Fin 2) * _ = 0
      rw [(idx4 t).1, Nat.zero_mul]
    · show win0_4.index t (1 : Fin 2) * _ = 0
      rw [(idx4 t).2, Nat.zero_mul]
  generalize result4 m c = G
  exact (Memref.read_access_unit_zero (Elt F) main_v16_0 hz' (fun a => by rw [congrFun hz' a]; simp) G).symm

/-- Accumulator one's block at any point is the whole 1×1 array. -/
theorem mem_blk4 (t : Fin cfg0.N) (i : ((cfg0.win 4).arr.view.loc (Dev.tc (0 : Dev nD) : Thread nD τ)).2.ty.Idx) : i ∈ ((cfg0.win 4).blk t).view.set := by
  show i ∈ ((View.whole main_v16_0).slice (win0_4.rect t)).set
  rw [View.set_slice_whole, Rect.mem_set_unit]
  intro a
  have h0 : (i 0 : Nat) < 1 := (i 0).isLt
  have h1 : (i 1 : Nat) < 1 := (i 1).isLt
  match a with
  | ⟨0, _⟩ => show win0_4.index t 0 * win0_4.size 0 ≤ (i 0 : Nat) ∧ (i 0 : Nat) < win0_4.index t 0 * win0_4.size 0 + win0_4.xsize (grid0.coords t) 0
              rw [(idx4 t).1, (xsize4 t).1]; omega
  | ⟨1, _⟩ => show win0_4.index t 1 * win0_4.size 1 ≤ (i 1 : Nat) ∧ (i 1 : Nat) < win0_4.index t 1 * win0_4.size 1 + win0_4.xsize (grid0.coords t) 1
              rw [(idx4 t).2, (xsize4 t).2]; omega

/-- So the array ends holding what the last point left (the last point's block covers its one cell). -/
theorem final4 (c : Dev nD) : (dats m 0 c).arrAt 4 cfg0.N = result4 m c :=
  (dats m 0 c).arrAt_eq_of_cover 4 (result4 m c) (flushed4 m c) fun i =>
    ⟨tLast, (flush0_4 tLast).mpr rfl, mem_blk4 tLast i⟩

/-- Accumulator two's block index is (0, 0) at every point, and its block is the whole 1×1 array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem xsize5 : ∀ t : Fin cfg0.N, win0_5.xsize (grid0.coords t) (0 : Fin 2) = 1 ∧ win0_5.xsize (grid0.coords t) (1 : Fin 2) = 1 :=
  (by decide +kernel : ∀ t : Fin grid0.N, win0_5.xsize (grid0.coords t) (0 : Fin 2) = 1 ∧ win0_5.xsize (grid0.coords t) (1 : Fin 2) = 1)

/-- The one write-back of accumulator two, at the last point, writes what that point left: block (0, 0) of the 1×1 array is the array. -/
theorem flushed5 (c : Dev nD) (t : Fin cfg0.N) (hf : (cfg0.win 5).flush t = true) :
    (dats m 0 c).flushed 5 t = ((cfg0.win 5).blk t).view.read (Elt F) (result5 m c) := by
  have hN : cfg0.N = 64 := N_0
  have h63 : t.val = 63 := by have := (flush0_5 t).mp hf; have := t.isLt; omega
  show (cfg0.win 5).cut (grid0.coords t) ((dats m 0 c).after 5 t) = _
  rw [after0_5, outsAt_congr m c t.val 63 t.isLt tLast.isLt h63]
  show (cfg0.win 5).cut (grid0.coords t) (result5 m c) = ((cfg0.win 5).blk t).view.read (Elt F) (result5 m c)
  have hz' : (fun a => win0_5.index t a * main_v16_1.ty.shape.size a) = fun _ => 0 := funext fun a => by
    fin_cases a
    · show win0_5.index t (0 : Fin 2) * _ = 0
      rw [(idx5 t).1, Nat.zero_mul]
    · show win0_5.index t (1 : Fin 2) * _ = 0
      rw [(idx5 t).2, Nat.zero_mul]
  generalize result5 m c = G
  exact (Memref.read_access_unit_zero (Elt F) main_v16_1 hz' (fun a => by rw [congrFun hz' a]; simp) G).symm

/-- Accumulator two's block at any point is the whole 1×1 array. -/
theorem mem_blk5 (t : Fin cfg0.N) (i : ((cfg0.win 5).arr.view.loc (Dev.tc (0 : Dev nD) : Thread nD τ)).2.ty.Idx) : i ∈ ((cfg0.win 5).blk t).view.set := by
  show i ∈ ((View.whole main_v16_1).slice (win0_5.rect t)).set
  rw [View.set_slice_whole, Rect.mem_set_unit]
  intro a
  have h0 : (i 0 : Nat) < 1 := (i 0).isLt
  have h1 : (i 1 : Nat) < 1 := (i 1).isLt
  match a with
  | ⟨0, _⟩ => show win0_5.index t 0 * win0_5.size 0 ≤ (i 0 : Nat) ∧ (i 0 : Nat) < win0_5.index t 0 * win0_5.size 0 + win0_5.xsize (grid0.coords t) 0
              rw [(idx5 t).1, (xsize5 t).1]; omega
  | ⟨1, _⟩ => show win0_5.index t 1 * win0_5.size 1 ≤ (i 1 : Nat) ∧ (i 1 : Nat) < win0_5.index t 1 * win0_5.size 1 + win0_5.xsize (grid0.coords t) 1
              rw [(idx5 t).2, (xsize5 t).2]; omega

/-- So the array ends holding what the last point left (the last point's block covers its one cell). -/
theorem final5 (c : Dev nD) : (dats m 0 c).arrAt 5 cfg0.N = result5 m c :=
  (dats m 0 c).arrAt_eq_of_cover 5 (result5 m c) (flushed5 m c) fun i =>
    ⟨tLast, (flush0_5 tLast).mpr rfl, mem_blk5 tLast i⟩

end Cert.KernelIdeal.Hand

end
-- ==== Proof.Spec.lean ====
/-
  The quantity both programs compute, stated once over the two argument vectors `x` (predictions) and `y` (targets),
  each of 8192 extended reals.

  For a pair of positions `(r, c)`:
  * `diff v r c = v r - v c`;
  * the pair COUNTS (`pairBit`) when the targets differ (`y r - y c ≠ 0`) and `r < c` (the strict upper triangle; the
    comparison is the programs' signed comparison of the two positions as 32-bit words);
  * its hinge is `max 0 (1 - s · (x r - x c))` with `s = 1` when `y r - y c > 0` and `s = -1` otherwise;
  * `pairTerm` is the hinge where the pair counts and `0` elsewhere, `pairOne` is `1` where it counts and `0` elsewhere
    (the bit widened to a word and read as an integer).
  `num` and `cnt` are the sums of `pairTerm` and `pairOne` over all 8192 × 8192 pairs; the ranking term is `num / max cnt 1`
  when `cnt > 0` and `0` otherwise, and the result is `w₁ · huber + w₂ · ranking` for the two literal weights.
  Float literals stay the words the programs print (the same word stands on both sides and is never evaluated).
-/
import Idealize.ShloMosaic.PureOps.Ideal
import Idealize.ShloMosaic.Lib.ValueIdx

noncomputable section

namespace Cert.PairRank

open Idealize.ShloMosaic Idealize.ShloMosaic.ValueIdx

/-- A vector of 8192 extended reals, indexed as the programs index a rank-1 array. -/
abbrev Vec8192 : Type := (⟨1, ![8192]⟩ : Shape).Idx → EReal

/-- The literal words. -/
abbrev w0 : EReal := Ideal.ofBits .f32 0x00000000#32
abbrev w1 : EReal := Ideal.ofBits .f32 0x3F800000#32
abbrev wm1 : EReal := Ideal.ofBits .f32 0xBF800000#32

/-- `v r - v c`. -/
def diff (v : Vec8192) (r c : Fin 8192) : EReal := v (ix1 r) - v (ix1 c)

/-- `r < c`, as the signed comparison of the two positions as 32-bit words. -/
def upper (r c : Fin 8192) : BitVec 1 := IntOp.cmpi .slt (BitVec.ofNat 32 r.val) (BitVec.ofNat 32 c.val)

/-- The pair counts: the targets differ and `r < c`. -/
def pairBit (y : Vec8192) (r c : Fin 8192) : BitVec 1 := IntOp.andi (Ideal.cmp .une (diff y r c) w0) (upper r c)

/-- `max 0 (1 - s · (x r - x c))`, `s` the sign of the targets' difference (`-1` when it is not positive). -/
def hinge (x y : Vec8192) (r c : Fin 8192) : EReal :=
  max w0 (w1 - Scalar.select (Ideal.cmp .ogt (diff y r c) w0) w1 wm1 * diff x r c)

/-- The hinge where the pair counts, `0` elsewhere. -/
def pairTerm (x y : Vec8192) (r c : Fin 8192) : EReal := Scalar.select (pairBit y r c) (hinge x y r c) w0

/-- `1` where the pair counts, `0` elsewhere: the bit widened to a 32-bit word, read as a signed integer. -/
def pairOne (y : Vec8192) (r c : Fin 8192) : EReal := ((((pairBit y r c).setWidth 32).toInt : ℝ) : EReal)

/-- The sum of the hinges of the counting pairs. -/
def num (x y : Vec8192) : EReal := ∑ r : Fin 8192, ∑ c : Fin 8192, pairTerm x y r c

/-- The number of counting pairs. -/
def cnt (y : Vec8192) : EReal := ∑ r : Fin 8192, ∑ c : Fin 8192, pairOne y r c

/-- `n / max k 1` when `k > 0`, else `0`. -/
def ranking (n k : EReal) : EReal := Scalar.select (Ideal.cmp .ogt k w0) (Ideal.div n (max k w1)) w0

/-- The result from the Huber mean `h`, the hinge sum `n` and the pair count `k`. -/
def combine (h n k : EReal) : EReal :=
  Ideal.ofBits .f32 0x3F333333#32 * h + Ideal.ofBits .f32 0x3E99999A#32 * ranking n k

/-! ## The tiling of the pairs into 8 × 8 tiles of 1024 × 1024 -/

/-- Position `p` of tile row (or tile column) `i`: `1024 · i + p`. -/
def gpos (i : Fin 8) (p : Fin 1024) : Fin 8192 := ⟨1024 * i.val + p.val, by omega⟩

/-- The 64 tiles in row-major order: tile `t` is in tile row `t / 8` and tile column `t % 8`. -/
def tileRow (t : Fin 64) : Fin 8 := ⟨t.val / 8, by omega⟩
def tileCol (t : Fin 64) : Fin 8 := ⟨t.val % 8, by omega⟩

/-- What tile `t` adds to a running sum of `f` over the pairs: the sum of `f` over the tile when its tile row is not past its
    tile column, and nothing for a tile strictly below the diagonal (every pair in such a tile has `c < r`). -/
def tileSum (f : Fin 8192 → Fin 8192 → EReal) (t : Fin 64) : EReal :=
  if tileRow t ≤ tileCol t then ∑ p : Fin 1024, ∑ q : Fin 1024, f (gpos (tileRow t) p) (gpos (tileCol t) q) else 0

/-- The same with the tile numbered by a natural number (nothing past the 64th). -/
def tileSumN (f : Fin 8192 → Fin 8192 → EReal) (k : ℕ) : EReal := if h : k < 64 then tileSum f ⟨k, h⟩ else 0

end Cert.PairRank

end
-- ==== Proof.Payloads.lean ====
/-
  The arithmetic of the kernel body's stores, read at an index, over the extended reals.

  At a tile the body adds to each of its two one-element accumulators the total of a 1024 × 1024 array: the masked hinges
  into the first, the mask bits (each widened to a word and read as an integer) into the second. The program takes such
  a total by viewing the array as 1 × 1024 × 1024, summing over the last two axes into a one-element vector, viewing that
  as 1 × 1 × 1, taking its one element and spreading it over the 1 × 1 accumulator. Over the extended reals this is the
  double sum over the rows and the columns of the array; the statements below say so, and that the two accumulators
  start from zero.
-/
import proofs.«137468_j7060926235085_1_alg».proof.Proof.Gen.KernelIdeal.Skeleton
import proofs.«137468_j7060926235085_1_alg».proof.Proof.Spec
import Idealize.ShloMosaic.Lib.ValueLayout
import Idealize.ShloMosaic.PureOps.Ideal.Laws

noncomputable section

open scoped BigOperators

namespace Cert.PairRank.Kernel

open Cert.KernelIdeal Cert.KernelIdeal.Gen Idealize.ShloMosaic Idealize.ShloMosaic.ValueIdx Cert.PairRank

/-- A change of shape keeps the elements, so it keeps their sum. -/
theorem sum_shapeCast {s t : Shape} {M : Type} [AddCommMonoid M] (x : s.Idx → M) (h : s.ShapeCasts t) :
    ∑ j : t.Idx, shapeCast t x h j = ∑ i : s.Idx, x i :=
  Equiv.sum_comp (Shape.reshapeEquiv h) x

/-- An extraction at a static position reads the array at that position. -/
theorem extractAt_eq {s : Shape} {α : Type} (pos : Fin s.rank → Nat) (x : s.Idx → α) (h : ∀ a, pos a < s.size a) :
    extractAt pos x h = x (fun a => ⟨pos a, h a⟩) := rfl

/-- A change of shape read at an index reads the operand at the index with the same row-major position. -/
theorem shapeCast_eq {s t : Shape} {α : Type} (x : s.Idx → α) (h : s.ShapeCasts t) (j : t.Idx) :
    shapeCast t x h j = x (Shape.reshapeEquiv h j) := rfl

/-- The total of a 1024 × 1024 array, taken as the program takes it — the array viewed as 1 × 1024 × 1024 and summed over
    its last two axes into the one-element shape — is the double sum over the rows and the columns: a sum into a shape
    with one element runs over every element of the source, the change of shape keeps the elements, and an index of a
    rank-2 array is a pair of coordinates. -/
theorem tileTotal (v : FVec Ideal S1024x1024 .f32) (j : S1.Idx) :
    multiReduction (F := Ideal) .add [1, 2] S1 (shapeCast S1x1024x1024 v shapeCasts_S1024x1024_S1x1024x1024) 0x00000000#32
        reduces_S1x1024x1024_S1 (.inl rfl) rfl j
      = ∑ p : Fin 1024, ∑ q : Fin 1024, v (ix2 p q) :=
  (Ideal.multiReduction_add_total _ _ _ (fun b => match b with | ⟨0, _⟩ => rfl) _ _ j).trans
    ((sum_shapeCast v _).trans (sum_idx2 v))

/-- The first accumulator's new value: the old one plus the sum of the stored array over its rows and columns. -/
theorem pay3_apply (v47 : FVec Ideal S1024x1024 .f32) (v48 : Vec Ideal S1x1 .f32) (k : S1x1.Idx) :
    k0_pay3 (F := Ideal) v47 v48 k = v48 k + ∑ p : Fin 1024, ∑ q : Fin 1024, v47 (ix2 p q) := by
  unfold k0_pay3
  rw [addf_apply, broadcast_apply, shapeCast_self, extractAt_eq, shapeCast_eq, tileTotal]

/-- The second accumulator's new value: the old one plus the number the mask bits add up to, each bit widened to a 32-bit
    word and read as a signed integer. -/
theorem pay4_apply (v45 : IVec S1024x1024 1) (v57 : Vec Ideal S1x1 .f32) (k : S1x1.Idx) :
    k0_pay4 (F := Ideal) v45 v57 k
      = v57 k + ∑ p : Fin 1024, ∑ q : Fin 1024, ((((v45 (ix2 p q)).setWidth 32).toInt : ℝ) : EReal) := by
  unfold k0_pay4
  rw [addf_apply, broadcast_apply, shapeCast_self, extractAt_eq, shapeCast_eq, tileTotal]
  refine congrArg (v57 k + ·) (Finset.sum_congr rfl fun p _ => Finset.sum_congr rfl fun q _ => ?_)
  rw [sitofp_apply, extui_apply]
  rfl

/-- The first accumulator starts from zero. -/
theorem pay1_apply (k : S1x1.Idx) : k0_pay1 (F := Ideal) k = 0 := by
  unfold k0_pay1
  rw [broadcast_apply]
  exact Ideal.ofBits_zero_f32

/-- The second accumulator starts from zero. -/
theorem pay2_apply (k : S1x1.Idx) : k0_pay2 (F := Ideal) k = 0 := by
  unfold k0_pay2
  rw [broadcast_apply]
  exact Ideal.ofBits_zero_f32

end Cert.PairRank.Kernel

end
-- ==== Proof.PayloadsMask.lean ====
/-
  The kernel's two pointwise payloads on a 1024 x 1024 tile, read at a position.

  At the grid point (i, j) the kernel holds a column block (1024 x 1) and a row block (1 x 1024) of each argument:
  position p of a column block is the argument's entry 1024 i + p, position q of a row block is its entry 1024 j + q.
  The kernel broadcasts the column along the columns and the row along the rows of a 1024 x 1024 tile, so at the tile
  position (p, q) the broadcast column reads the column's entry p and the broadcast row reads the row's entry q; their
  difference at (p, q) is the difference of the argument's entries 1024 i + p and 1024 j + q.

  The tile's global row and column numbers are formed as 32-bit words: (i as a word) x 1024 + (the position as a
  word). Words add and multiply modulo 2^32, and so does the passage from a natural number to its word, so this word
  is the word of 1024 i + p.

  On the extended reals the comparison "ordered and not equal" and the comparison "unordered or not equal" are the
  same function (every two extended reals are ordered): both decide x ≠ y. So the kernel's mask at (p, q) is the
  specification's pair bit of the global pair (1024 i + p, 1024 j + q), and its masked hinge is the pair term.
-/
import proofs.«137468_j7060926235085_1_alg».proof.Proof.Gen.KernelIdeal.Skeleton
import proofs.«137468_j7060926235085_1_alg».proof.Proof.Spec
import Idealize.ShloMosaic.Lib.Pipeline.Value
import Idealize.ShloMosaic.Lib.ValueLayout

noncomputable section

namespace Cert.PairRank.Kernel

open Cert.KernelIdeal Cert.KernelIdeal.Gen Idealize.ShloMosaic Idealize.ShloMosaic.ValueIdx

/-! ## A column broadcast along the columns -/

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The global position as a 32-bit word -/

/-- The word of the tile index times the word 1024, plus the word of the position inside the tile, is the word of
    the global position 1024 i + p: words add and multiply modulo 2^32, as the passage from numbers to words does. -/
theorem word_gpos (i : Fin 8) (p : Fin 1024) :
    Scalar.muli (BitVec.ofNat 32 i.val) 1024#32 + BitVec.ofNat 32 (0 * 1024 + p.val) = BitVec.ofNat 32 (gpos i p).val := by
  show BitVec.ofNat 32 i.val * BitVec.ofNat 32 1024 + BitVec.ofNat 32 (0 * 1024 + p.val)
    = BitVec.ofNat 32 (1024 * i.val + p.val)
  rw [Nat.zero_mul, Nat.zero_add, BitVec.ofNat_add, BitVec.ofNat_mul, BitVec.mul_comm]

/-! ## The difference of a column block and a row block on the tile -/

/-- The broadcast column minus the broadcast row, at the tile position (p, q): the column's entry p minus the row's
    entry q. -/
theorem pay5_apply (v12 : Vec Ideal S1024x1 .f32) (v14 : Vec Ideal S1x1024 .f32) (p q : Fin 1024) :
    k0_pay5 (F := Ideal) v12 v14 (ix2 p q) = v12 (ix2 p 0) - v14 (ix2 0 q) := by
  unfold k0_pay5
  show broadcastTo S1024x1024 (shapeCast S1024x1 v12 shapeCasts_S1024x1_S1024x1) broadcasts_S1024x1_S1024x1024 (ix2 p q)
      - broadcastTo S1024x1024 (shapeCast S1x1024 v14 shapeCasts_S1x1024_S1x1024) broadcasts_S1x1024_S1024x1024 (ix2 p q) = _
  rw [shapeCast_self, shapeCast_self, broadcastTo_a1_ab_apply, broadcastTo_1b_ab_apply]

/-! ## The mask -/

/-- The kernel's mask at the tile position (p, q) of the grid point (i, j) is the pair bit of the global pair
    (1024 i + p, 1024 j + q), when the column block and the row block hold the targets' entries at those positions. -/
theorem pay6_apply (y : Vec8192) (i j : Fin 8) (v12 : Vec Ideal S1024x1 .f32) (v14 : Vec Ideal S1x1024 .f32)
    (h12 : ∀ p : Fin 1024, v12 (ix2 p 0) = y (ix1 (gpos i p))) (h14 : ∀ q : Fin 1024, v14 (ix2 0 q) = y (ix1 (gpos j q)))
    (p q : Fin 1024) :
    k0_pay6 (F := Ideal) (BitVec.ofNat 32 i.val) (BitVec.ofNat 32 j.val) v12 v14 (ix2 p q)
      = pairBit y (gpos i p) (gpos j q) := by
  unfold k0_pay6
  show IntOp.andi (Ideal.cmp .one (k0_pay5 (F := Ideal) v12 v14 (ix2 p q)) (Ideal.ofBits .f32 0x00000000#32))
      (IntOp.cmpi .slt
        (broadcastTo S1024x1024 (addi (broadcast S1024x1 (Scalar.muli (BitVec.ofNat 32 i.val) 1024#32))
          (iota .tc S1024x1 32 [0] iota_S1024x1_d0_w32)) broadcasts_S1024x1_S1024x1024 (ix2 p q))
        (broadcastTo S1024x1024 (addi (broadcast S1x1024 (Scalar.muli (BitVec.ofNat 32 j.val) 1024#32))
          (iota .tc S1x1024 32 [1] iota_S1x1024_d1_w32)) broadcasts_S1x1024_S1024x1024 (ix2 p q))) = _
  rw [pay5_apply, h12, h14, broadcastTo_a1_ab_apply, broadcastTo_1b_ab_apply]
  show IntOp.andi (Ideal.cmp .one (y (ix1 (gpos i p)) - y (ix1 (gpos j q))) (Ideal.ofBits .f32 0x00000000#32))
      (IntOp.cmpi .slt
        (Scalar.muli (BitVec.ofNat 32 i.val) 1024#32 + BitVec.ofNat 32 (0 * 1024 + p.val))
        (Scalar.muli (BitVec.ofNat 32 j.val) 1024#32 + BitVec.ofNat 32 (0 * 1024 + q.val))) = _
  rw [word_gpos, word_gpos]
  rfl

/-! ## The masked hinge -/

/-- The kernel's masked hinge at the tile position (p, q) of the grid point (i, j) is the pair term of the global pair
    (1024 i + p, 1024 j + q), when the column blocks and the row blocks hold the predictions' and the targets' entries
    at those positions: the hinge max 0 (1 - sign x (difference of the predictions)), the sign 1 where the targets'
    difference is positive and -1 elsewhere, kept where the mask is set and 0 elsewhere. -/
theorem pay7_apply (x y : Vec8192) (i j : Fin 8) (v8 v12 : Vec Ideal S1024x1 .f32) (v10 v14 : Vec Ideal S1x1024 .f32)
    (h8 : ∀ p : Fin 1024, v8 (ix2 p 0) = x (ix1 (gpos i p))) (h10 : ∀ q : Fin 1024, v10 (ix2 0 q) = x (ix1 (gpos j q)))
    (h12 : ∀ p : Fin 1024, v12 (ix2 p 0) = y (ix1 (gpos i p))) (h14 : ∀ q : Fin 1024, v14 (ix2 0 q) = y (ix1 (gpos j q)))
    (p q : Fin 1024) :
    k0_pay7 (F := Ideal) (BitVec.ofNat 32 i.val) (BitVec.ofNat 32 j.val) v8 v10 v12 v14 (ix2 p q)
      = pairTerm x y (gpos i p) (gpos j q) := by
  unfold k0_pay7
  show Scalar.select (k0_pay6 (F := Ideal) (BitVec.ofNat 32 i.val) (BitVec.ofNat 32 j.val) v12 v14 (ix2 p q))
      (max (Ideal.ofBits .f32 0x00000000#32)
        (Ideal.ofBits .f32 0x3F800000#32
          - Scalar.select (Ideal.cmp .ogt (k0_pay5 (F := Ideal) v12 v14 (ix2 p q)) (Ideal.ofBits .f32 0x00000000#32))
              (Ideal.ofBits .f32 0x3F800000#32) (Ideal.ofBits .f32 0xBF800000#32)
            * k0_pay5 (F := Ideal) v8 v10 (ix2 p q)))
      (Ideal.ofBits .f32 0x00000000#32) = _
  rw [pay6_apply y i j v12 v14 h12 h14, pay5_apply, pay5_apply, h8, h10, h12, h14]
  rfl

end Cert.PairRank.Kernel

end
-- ==== Proof.Blocks.lean ====
/-
  The kernel's four input blocks, read at an index.

  Before the region the two argument vectors (8192 entries each) are reshaped, without moving any entry, to a column
  (8192 x 1) and to a row (1 x 8192). A reshape keeps the row-major position of every entry, so the column's entry
  (r, 0) and the row's entry (0, r) are both the vector's entry r.

  The region walks an 8 x 8 grid. At the grid point with coordinates (i, j) the column windows hold block (i, 0) of
  a column, of extents 1024 x 1, and the row windows hold block (0, j) of a row, of extents 1 x 1024. The entry of a
  block at a position inside it is the array's entry whose coordinate on each axis is
      (block index on the axis) x (block extent on the axis) + (position inside the block on the axis).
  So position p of the column block at (i, j) is entry 1024 i + p of the vector, and position q of the row block
  is entry 1024 j + q: the positions the specification calls gpos i p and gpos j q.
-/
import proofs.«137468_j7060926235085_1_alg».proof.Proof.Gen.KernelIdeal.Frame
import proofs.«137468_j7060926235085_1_alg».proof.Proof.Spec
import Idealize.ShloMosaic.Lib.Pipeline.Value

set_option maxRecDepth 16384

noncomputable section

namespace Cert.PairRank.Blocks

open Cert.KernelIdeal Cert.KernelIdeal.Gen Idealize.ShloMosaic Idealize.ShloMosaic.TcCoe Idealize.ShloMosaic.ValueIdx
open Idealize.SL.Sem Idealize.ShloMosaic.StableHlo

/-! ## A vector reshaped to a column or to a row, read at an index -/

/-- A vector of 8192 entries reshaped to an 8192 x 1 column, read at an index whose first coordinate is r, is the
    vector's entry r: the column's row-major position is (first coordinate) x 1 + (second coordinate), and the
    second coordinate is below 1. -/
theorem reshape_col_apply {α : Type} (x : S8192.Idx → α) (h : S8192.ShapeCasts S8192x1) (k : S8192x1.Idx)
    (r : Fin 8192) (hk : (k 0).val = r.val) : shapeCast S8192x1 x h k = x (ix1 r) := by
  refine shapeCast_apply x h k (ix1 r) ?_
  rw [Shape.rowMajor_val_one, Shape.rowMajor_val_two]
  show r.val = (k 0).val * 1 + (k 1).val
  have h1 : (k 1).val < 1 := (k 1).isLt
  omega

/-- A vector of 8192 entries reshaped to a 1 x 8192 row, read at an index whose second coordinate is r, is the
    vector's entry r: the row's row-major position is (first coordinate) x 8192 + (second coordinate), and the first
    coordinate is below 1. -/
theorem reshape_row_apply {α : Type} (x : S8192.Idx → α) (h : S8192.ShapeCasts S1x8192) (k : S1x8192.Idx)
    (r : Fin 8192) (hk : (k 1).val = r.val) : shapeCast S1x8192 x h k = x (ix1 r) := by
  refine shapeCast_apply x h k (ix1 r) ?_
  rw [Shape.rowMajor_val_one, Shape.rowMajor_val_two]
  show r.val = (k 0).val * 8192 + (k 1).val
  have h0 : (k 0).val < 1 := (k 0).isLt
  omega

/-! ## The four reshaped arrays as the region finds them -/

variable (m : (ℓ : Loc nD τ sig) → Buf (Elt Ideal) ℓ) (c : Dev nD)

/-- Window 0's array: the first argument as a column. -/
theorem V_main_v12 : (Gen.V m c main_v12 : S8192x1.Idx → EReal)
    = shapeCast S8192x1 (m ((c.tc : Thread nD τ).loc main_arg0)) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

/-- Window 1's array: the first argument as a row. -/
theorem V_main_v13 : (Gen.V m c main_v13 : S1x8192.Idx → EReal)
    = shapeCast S1x8192 (m ((c.tc : Thread nD τ).loc main_arg0)) shapeCasts_S8192_S1x8192 := by
  dsimp only [Gen.V, Gen.V0]
  simp only [Gen.hostOps0, Gen.hostOps0_1, Gen.hostOps0_2, List.flatten_cons, List.flatten_nil, List.append_nil,
    List.cons_append, List.nil_append]
  after_results
  rfl

/-- Window 2's array: the second argument as a column. -/
theorem V_main_v14 : (Gen.V m c main_v14 : S8192x1.Idx → EReal)
    = shapeCast S8192x1 (m ((c.tc : Thread nD τ).loc main_arg1)) shapeCasts_S8192_S8192x1 := by
  dsimp only [Gen.V, Gen.V0]
  simp only [Gen.hostOps0, Gen.hostOps0_1, Gen.hostOps0_2, List.flatten_cons, List.flatten_nil, List.append_nil,
    List.cons_append, List.nil_append]
  after_results
  rfl

/-- Window 3's array: the second argument as a row. -/
theorem V_main_v15 : (Gen.V m c main_v15 : S1x8192.Idx → EReal)
    = shapeCast S1x8192 (m ((c.tc : Thread nD τ).loc main_arg1)) shapeCasts_S8192_S1x8192 := by
  dsimp only [Gen.V, Gen.V0]
  simp only [Gen.hostOps0, Gen.hostOps0_1, Gen.hostOps0_2, List.flatten_cons, List.flatten_nil, List.append_nil,
    List.cons_append, List.nil_append]
  after_results
  rfl

/-! ## The block indices over the grid -/

/-- A column window's block index at a grid point is (the point's first coordinate, 0). -/
theorem idx0 : ∀ t : Fin cfg0.N, win0_0.index t (0 : Fin 2) = (grid0.coords t (0 : Fin 2)).val
    ∧ win0_0.index t (1 : Fin 2) = 0 :=
  (by decide +kernel : ∀ t : Fin grid0.N, _)
theorem idx2 : ∀ t : Fin cfg0.N, win0_2.index t (0 : Fin 2) = (grid0.coords t (0 : Fin 2)).val
    ∧ win0_2.index t (1 : Fin 2) = 0 :=
  (by decide +kernel : ∀ t : Fin grid0.N, _)
/-- A row window's block index at a grid point is (0, the point's second coordinate). -/
theorem idx1 : ∀ t : Fin cfg0.N, win0_1.index t (0 : Fin 2) = 0
    ∧ win0_1.index t (1 : Fin 2) = (grid0.coords t (1 : Fin 2)).val :=
  (by decide +kernel : ∀ t : Fin grid0.N, _)
theorem idx3 : ∀ t : Fin cfg0.N, win0_3.index t (0 : Fin 2) = 0
    ∧ win0_3.index t (1 : Fin 2) = (grid0.coords t (1 : Fin 2)).val :=
  (by decide +kernel : ∀ t : Fin grid0.N, _)

/-! ## The blocks read at a position -/

/-- Position p of window 0's block at a grid point of first coordinate i is entry 1024 i + p of the first argument. -/
theorem iblk0_apply (t : Fin cfg0.N) (i : Fin 8) (hi : (grid0.coords t (0 : Fin 2)).val = i.val) (p : Fin 1024) :
    Gen.iblk m c 0 t (ix2 p 0) = m ((c.tc : Thread nD τ).loc main_arg0) (ix1 (gpos i p)) := by
  unfold Gen.iblk
  show (Gen.V m c main_v12 : S8192x1.Idx → EReal) (((cfg0.win 0).blk t).view.emb (ix2 p 0)) = _
  rw [V_main_v12]
  refine reshape_col_apply _ _ _ (gpos i p) ?_
  show win0_0.index t (0 : Fin 2) * 1024 + 1 * p.val = 1024 * i.val + p.val
  have e := (idx0 t).1
  omega

/-- Position q of window 1's block at a grid point of second coordinate j is entry 1024 j + q of the first argument. -/
theorem iblk1_apply (t : Fin cfg0.N) (j : Fin 8) (hj : (grid0.coords t (1 : Fin 2)).val = j.val) (q : Fin 1024) :
    Gen.iblk m c 1 t (ix2 0 q) = m ((c.tc : Thread nD τ).loc main_arg0) (ix1 (gpos j q)) := by
  unfold Gen.iblk
  show (Gen.V m c main_v13 : S1x8192.Idx → EReal) (((cfg0.win 1).blk t).view.emb (ix2 0 q)) = _
  rw [V_main_v13]
  refine reshape_row_apply _ _ _ (gpos j q) ?_
  show win0_1.index t (1 : Fin 2) * 1024 + 1 * q.val = 1024 * j.val + q.val
  have e := (idx1 t).2
  omega

/-- Position p of window 2's block at a grid point of first coordinate i is entry 1024 i + p of the second argument. -/
theorem iblk2_apply (t : Fin cfg0.N) (i : Fin 8) (hi : (grid0.coords t (0 : Fin 2)).val = i.val) (p : Fin 1024) :
    Gen.iblk m c 2 t (ix2 p 0) = m ((c.tc : Thread nD τ).loc main_arg1) (ix1 (gpos i p)) := by
  unfold Gen.iblk
  show (Gen.V m c main_v14 : S8192x1.Idx → EReal) (((cfg0.win 2).blk t).view.emb (ix2 p 0)) = _
  rw [V_main_v14]
  refine reshape_col_apply _ _ _ (gpos i p) ?_
  show win0_2.index t (0 : Fin 2) * 1024 + 1 * p.val = 1024 * i.val + p.val
  have e := (idx2 t).1
  omega

/-- Position q of window 3's block at a grid point of second coordinate j is entry 1024 j + q of the second argument. -/
theorem iblk3_apply (t : Fin cfg0.N) (j : Fin 8) (hj : (grid0.coords t (1 : Fin 2)).val = j.val) (q : Fin 1024) :
    Gen.iblk m c 3 t (ix2 0 q) = m ((c.tc : Thread nD τ).loc main_arg1) (ix1 (gpos j q)) := by
  unfold Gen.iblk
  show (Gen.V m c main_v15 : S1x8192.Idx → EReal) (((cfg0.win 3).blk t).view.emb (ix2 0 q)) = _
  rw [V_main_v15]
  refine reshape_row_apply _ _ _ (gpos j q) ?_
  show win0_3.index t (1 : Fin 2) * 1024 + 1 * q.val = 1024 * j.val + q.val
  have e := (idx3 t).2
  omega

end Cert.PairRank.Blocks

end
-- ==== Proof.LiveTile.lean ====
/-
  One tile's sums are the specification's tile sums.

  The region walks its 8 × 8 grid in row-major order: point t is in tile row t / 8 and tile column t % 8. At a point whose
  tile row is not past its tile column the body adds, to its two accumulators, the sums over the 1024 × 1024 tile of its
  masked hinge and of its mask bit (widened to a word and read as an integer). The four blocks the body reads there hold
  the entries 1024 · (t / 8) + p of the two arguments (the columns) and 1024 · (t % 8) + q (the rows), so at the tile
  position (p, q) the masked hinge is the pair term, and the mask bit the pair bit, of the pair of positions
  (1024 · (t / 8) + p, 1024 · (t % 8) + q): the tile's two sums are the specification's sums over tile t. A tile strictly
  below the diagonal adds nothing to the specification's sums.
-/
import proofs.«137468_j7060926235085_1_alg».proof.Proof.Payloads
import proofs.«137468_j7060926235085_1_alg».proof.Proof.PayloadsMask
import proofs.«137468_j7060926235085_1_alg».proof.Proof.Blocks
import proofs.«137468_j7060926235085_1_alg».proof.Proof.KIRuns
import proofs.«137468_j7060926235085_1_alg».proof.Proof.Spec

set_option maxRecDepth 16384

noncomputable section

open scoped BigOperators

namespace Cert.PairRank.Kernel

open Cert.KernelIdeal Cert.KernelIdeal.Gen Idealize.ShloMosaic Idealize.ShloMosaic.TcCoe Idealize.ShloMosaic.ValueIdx
open Idealize.SL.Sem Cert.PairRank Cert.PairRank.Blocks Cert.KernelIdeal.Hand

/-- A tile strictly below the diagonal (its tile row past its tile column), or past the 64th, adds nothing. -/
theorem skip_tile (f : Fin 8192 → Fin 8192 → EReal) (n : ℕ) (h2 : ¬ n / 8 ≤ n % 8) : tileSumN f n = 0 := by
  unfold tileSumN
  split
  · next h =>
    unfold tileSum
    exact if_neg fun hle => h2 (Fin.le_def.mp hle)
  · rfl

variable (m : (ℓ : Loc nD τ sig) → Buf (Elt Ideal) ℓ) (c : Dev nD)

/-- The grid has 64 points. -/
theorem tile_lt (t : Fin cfg0.N) : t.val < 64 := lt_of_lt_of_eq t.isLt N_0

/-- Point t's first coordinate is its tile row, its second its tile column. -/
theorem coord0_eq_tileRow (t : Fin cfg0.N) : (grid0.coords t (0 : Fin 2)).val = (tileRow ⟨t.val, tile_lt t⟩).val := hcoord0 t
theorem coord1_eq_tileCol (t : Fin cfg0.N) : (grid0.coords t (1 : Fin 2)).val = (tileCol ⟨t.val, tile_lt t⟩).val := hcoord1 t

/-- At a point on or above the diagonal, the sum of the body's masked hinge over the tile is the specification's sum of
    the pair terms over that tile. -/
theorem live_tile_num (t : Fin cfg0.N) (h2 : t.val / 8 ≤ t.val % 8) :
    ∑ p : Fin 1024, ∑ q : Fin 1024,
        k0_pay7 (F := Ideal) (BitVec.ofNat 32 (grid0.coords t 0).val) (BitVec.ofNat 32 (grid0.coords t 1).val)
          (Gen.iblk m c 0 t) (Gen.iblk m c 1 t) (Gen.iblk m c 2 t) (Gen.iblk m c 3 t) (ix2 p q)
      = tileSumN (pairTerm (m ((c.tc : Thread nD τ).loc main_arg0)) (m ((c.tc : Thread nD τ).loc main_arg1))) t.val := by
  unfold tileSumN
  rw [dif_pos (tile_lt t)]
  unfold tileSum
  rw [if_pos (Fin.le_def.mpr h2 : tileRow ⟨t.val, tile_lt t⟩ ≤ tileCol ⟨t.val, tile_lt t⟩)]
  refine Finset.sum_congr rfl fun p _ => Finset.sum_congr rfl fun q _ => ?_
  rw [coord0_eq_tileRow, coord1_eq_tileCol]
  exact pay7_apply _ _ (tileRow ⟨t.val, tile_lt t⟩) (tileCol ⟨t.val, tile_lt t⟩) _ _ _ _
    (fun p => iblk0_apply m c t _ (coord0_eq_tileRow t) p) (fun q => iblk1_apply m c t _ (coord1_eq_tileCol t) q)
    (fun p => iblk2_apply m c t _ (coord0_eq_tileRow t) p) (fun q => iblk3_apply m c t _ (coord1_eq_tileCol t) q) p q

/-- At a point on or above the diagonal, the sum of the body's mask bits over the tile, each widened to a 32-bit word and
    read as a signed integer, is the specification's count of the counting pairs of that tile. -/
theorem live_tile_cnt (t : Fin cfg0.N) (h2 : t.val / 8 ≤ t.val % 8) :
    ∑ p : Fin 1024, ∑ q : Fin 1024,
        (((((k0_pay6 (F := Ideal) (BitVec.ofNat 32 (grid0.coords t 0).val) (BitVec.ofNat 32 (grid0.coords t 1).val)
          (Gen.iblk m c 2 t) (Gen.iblk m c 3 t)) (ix2 p q)).setWidth 32).toInt : ℝ) : EReal)
      = tileSumN (pairOne (m ((c.tc : Thread nD τ).loc main_arg1))) t.val := by
  unfold tileSumN
  rw [dif_pos (tile_lt t)]
  unfold tileSum
  rw [if_pos (Fin.le_def.mpr h2 : tileRow ⟨t.val, tile_lt t⟩ ≤ tileCol ⟨t.val, tile_lt t⟩)]
  refine Finset.sum_congr rfl fun p _ => Finset.sum_congr rfl fun q _ => ?_
  rw [coord0_eq_tileRow, coord1_eq_tileCol]
  unfold pairOne
  exact congrArg (fun b : BitVec 1 => (((b.setWidth 32).toInt : ℝ) : EReal))
    (pay6_apply (m ((c.tc : Thread nD τ).loc main_arg1)) (tileRow ⟨t.val, tile_lt t⟩) (tileCol ⟨t.val, tile_lt t⟩) _ _
      (fun p => iblk2_apply m c t _ (coord0_eq_tileRow t) p) (fun q => iblk3_apply m c t _ (coord1_eq_tileCol t) q) p q)

end Cert.PairRank.Kernel

end
-- ==== Proof.LibBlockedSum.lean ====
/-
  Blocked and padded finite sums.

  A sum over an index range of length n * b can be taken block by block: an outer sum over the n blocks and
  an inner sum over the b positions of a block, the position (j, k) standing for the index j * b + k. A sum
  over a range whose tail holds only zeros equals the sum over the range without the tail. Together: a blocked
  sum over a zero-padded range equals the plain sum over the unpadded range. A running total that starts from
  the first block and adds one block per step equals the sum of the blocks seen so far.

  Everything is stated over an arbitrary additive commutative monoid: only commutativity, associativity and the
  neutrality of zero are used, so no finiteness or distributivity hypothesis appears. The last section states
  the instance on the extended reals with a product of two zero-padded factors.
-/
import Mathlib.Algebra.BigOperators.Fin
import Mathlib.Algebra.BigOperators.Intervals
import Mathlib.Data.EReal.Operations

namespace Cert.LibBlockedSum

open Finset

variable {M : Type*} [AddCommMonoid M]

/-- A sum over n * b consecutive indices equals the sum over n blocks of the sums over the b positions
    of each block, the position k of block j being the index j * b + k. -/
theorem sum_blocks (n b : ℕ) (f : ℕ → M) :
    ∑ j : Fin n, ∑ k : Fin b, f (j.val * b + k.val) = ∑ i : Fin (n * b), f i.val := by
  rw [← Fintype.sum_prod_type']
  refine Fintype.sum_equiv finProdFinEquiv _ _ ?_
  rintro ⟨j, k⟩
  have e : (finProdFinEquiv (j, k)).val = j.val * b + k.val := by
    show k.val + b * j.val = j.val * b + k.val
    rw [Nat.mul_comm, Nat.add_comm]
  rw [e]

/-- A sum over N indices whose terms vanish from index K on equals the sum over the first K indices. -/
theorem sum_padded (K N : ℕ) (h : K ≤ N) (f : ℕ → M) (hz : ∀ i, K ≤ i → i < N → f i = 0) :
    ∑ i : Fin N, f i.val = ∑ i : Fin K, f i.val := by
  rw [Fin.sum_univ_eq_sum_range f N, Fin.sum_univ_eq_sum_range f K]
  symm
  refine Finset.sum_subset (Finset.range_subset_range.2 h) ?_
  intro i hiN hiK
  exact hz i (Nat.le_of_not_lt fun hlt => hiK (Finset.mem_range.2 hlt)) (Finset.mem_range.1 hiN)

/-- A blocked sum (n blocks of b positions) over a range whose terms vanish from index K on equals the
    plain sum over the first K indices. -/
theorem blocked_padded (n b K : ℕ) (h : K ≤ n * b) (f : ℕ → M) (hz : ∀ i, K ≤ i → i < n * b → f i = 0) :
    ∑ j : Fin n, ∑ k : Fin b, f (j.val * b + k.val) = ∑ i : Fin K, f i.val :=
  (sum_blocks n b f).trans (sum_padded K (n * b) h f hz)

/-- A running total that starts at the first block and adds the next block at every step equals, after step
    j, the sum of the blocks 0, …, j. -/
theorem acc_eq_sum (acc blk : ℕ → M) (h0 : acc 0 = blk 0) (hs : ∀ j, acc (j + 1) = acc j + blk (j + 1))
    (j : ℕ) : acc j = ∑ i : Fin (j + 1), blk i.val := by
  induction j with
  | zero => rw [h0, Fin.sum_univ_one]; rfl
  | succ j ih => rw [hs, ih, Fin.sum_univ_castSucc (fun i : Fin (j + 1 + 1) => blk i.val)]; rfl

/-- The same with the first step written as an addition to a zero total. -/
theorem acc_eq_sum_of_zero_add (acc blk : ℕ → M) (h0 : acc 0 = 0 + blk 0)
    (hs : ∀ j, acc (j + 1) = acc j + blk (j + 1)) (j : ℕ) : acc j = ∑ i : Fin (j + 1), blk i.val :=
  acc_eq_sum acc blk (h0.trans (zero_add _)) hs j

/-- The running total after step j, each block being itself a sum over b positions of a function whose
    terms vanish from index K on, with (j + 1) * b indices covered so far: the plain sum over the first K
    indices. -/
theorem acc_blocked_padded (b K : ℕ) (f : ℕ → M) (acc : ℕ → M)
    (h0 : acc 0 = ∑ k : Fin b, f (0 * b + k.val))
    (hs : ∀ j, acc (j + 1) = acc j + ∑ k : Fin b, f ((j + 1) * b + k.val))
    (j : ℕ) (h : K ≤ (j + 1) * b) (hz : ∀ i, K ≤ i → i < (j + 1) * b → f i = 0) :
    acc j = ∑ i : Fin K, f i.val := by
  rw [acc_eq_sum acc (fun j => ∑ k : Fin b, f (j * b + k.val)) h0 hs j]
  exact blocked_padded (j + 1) b K h f hz

section EReal

/-- The product of two factors that are zero from index K on is zero from index K on (on the extended
    reals 0 * 0 = 0; nothing is assumed about the factors below K). -/
theorem padded_mul_eq_zero (K : ℕ) (v c : ℕ → EReal) (i : ℕ) (h : K ≤ i) :
    (if i < K then v i else 0) * (if i < K then c i else 0) = 0 := by
  rw [if_neg (Nat.not_lt.2 h), if_neg (Nat.not_lt.2 h), mul_zero]

/-- The contraction of a zero-padded row with a zero-padded column, taken in n blocks of b, equals the
    contraction of the unpadded row and column: general extents. -/
theorem blocked_padded_dot (n b K : ℕ) (h : K ≤ n * b) (v c : ℕ → EReal) :
    ∑ j : Fin n, ∑ k : Fin b,
        (if j.val * b + k.val < K then v (j.val * b + k.val) else 0) *
          (if j.val * b + k.val < K then c (j.val * b + k.val) else 0) =
      ∑ f : Fin K, v f.val * c f.val := by
  rw [blocked_padded n b K h (fun i => (if i < K then v i else 0) * (if i < K then c i else 0))
    (fun i hK _ => padded_mul_eq_zero K v c i hK)]
  refine Finset.sum_congr rfl fun i _ => ?_
  rw [if_pos i.isLt, if_pos i.isLt]

/-- The instance with 40 blocks of 512 positions covering 20480 indices, of which the first 20000 carry data
    and the last 480 are zero padding. -/
theorem blocked_padded_dot_40_512 (v c : ℕ → EReal) :
    ∑ j : Fin 40, ∑ k : Fin 512,
        (if j.val * 512 + k.val < 20000 then v (j.val * 512 + k.val) else 0) *
          (if j.val * 512 + k.val < 20000 then c (j.val * 512 + k.val) else 0) =
      ∑ f : Fin 20000, v f.val * c f.val :=
  blocked_padded_dot 40 512 20000 (by norm_num) v c

/-- The same instance for padded functions given by name. -/
theorem blocked_padded_dot_40_512' (v c vp cp : ℕ → EReal)
    (hv : ∀ i, vp i = if i < 20000 then v i else 0) (hc : ∀ i, cp i = if i < 20000 then c i else 0) :
    ∑ j : Fin 40, ∑ k : Fin 512, vp (j.val * 512 + k.val) * cp (j.val * 512 + k.val) =
      ∑ f : Fin 20000, v f.val * c f.val := by
  rw [← blocked_padded_dot_40_512 v c]
  refine Finset.sum_congr rfl fun j _ => Finset.sum_congr rfl fun k _ => ?_
  rw [hv, hc]

end EReal

end Cert.LibBlockedSum
-- ==== Proof.LibBlockedSumTwo.lean ====
/-
  Blocked sums over two axes.

  A double sum over a range of length n1 * b1 and a range of length n2 * b2 can be taken block by block on both
  axes at once: over the n1 blocks and the b1 positions inside a block on the first axis, and over the n2 blocks
  and the b2 positions inside a block on the second, the position (j, k) of an axis standing for the index
  j * b + k. Stated over an arbitrary additive commutative monoid: only commutativity, associativity and the
  neutrality of zero are used. A second form takes the blocks of the second axis as a sum over a range.
-/
import proofs.«137468_j7060926235085_1_alg».proof.Proof.LibBlockedSum

namespace Cert.LibBlockedSum

open Finset

variable {M : Type*} [AddCommMonoid M]

/-- A four-fold sum over the blocks and the positions inside a block of two axes is the double sum over the two
    whole ranges. -/
theorem sum_blocks_two (n1 b1 n2 b2 : ℕ) (f : ℕ → ℕ → M) :
    ∑ i : Fin n1, ∑ r : Fin b1, ∑ k : Fin n2, ∑ l : Fin b2, f (i.val * b1 + r.val) (k.val * b2 + l.val)
      = ∑ a : Fin (n1 * b1), ∑ b : Fin (n2 * b2), f a.val b.val := by
  have inner : ∀ a : ℕ, ∑ k : Fin n2, ∑ l : Fin b2, f a (k.val * b2 + l.val) = ∑ b : Fin (n2 * b2), f a b.val :=
    fun a => sum_blocks n2 b2 (f a)
  rw [Finset.sum_congr rfl fun i _ => Finset.sum_congr rfl fun r _ => inner (i.val * b1 + r.val)]
  exact sum_blocks n1 b1 (fun a => ∑ b : Fin (n2 * b2), f a b.val)

/-- The same with the blocks of the second axis taken as a sum over the range of the first n2 naturals. -/
theorem sum_blocks_two_range (n1 b1 n2 b2 : ℕ) (f : ℕ → ℕ → M) :
    ∑ i : Fin n1, ∑ r : Fin b1, ∑ k ∈ Finset.range n2, ∑ l : Fin b2, f (i.val * b1 + r.val) (k * b2 + l.val)
      = ∑ a : Fin (n1 * b1), ∑ b : Fin (n2 * b2), f a.val b.val := by
  rw [Finset.sum_congr rfl fun i _ => Finset.sum_congr rfl fun r _ =>
    Finset.sum_range (fun k => ∑ l : Fin b2, f (i.val * b1 + r.val) (k * b2 + l.val))]
  exact sum_blocks_two n1 b1 n2 b2 f

end Cert.LibBlockedSum
-- ==== Proof.TriangleSum.lean ====
/-
  The summation law joining a tile-by-tile sum over the strict upper triangle to the sum over all pairs.

  The `8192 × 8192` pairs `(r, c)` are cut into `8 × 8` tiles of `1024 × 1024`, taken in row-major order. A running sum
  that adds a tile's pairs only when the tile's row is not past its column leaves out exactly the tiles strictly below
  the diagonal. For a function that vanishes whenever `c ≤ r` those tiles hold only zeros (`1024 · j + q < 1024 · i + p`
  for `j < i`), so the 64 tile contributions add up to the sum over every pair. The two functions summed here, the
  pair's hinge term and the pair's count, vanish for `c ≤ r` because their counting bit is a conjunction with the
  comparison `r < c`.

  Only commutativity and associativity of the sum and the neutrality of zero are used on the extended reals.
-/
import proofs.«137468_j7060926235085_1_alg».proof.Proof.Spec
import proofs.«137468_j7060926235085_1_alg».proof.Proof.LibBlockedSumTwo
import Idealize.ShloMosaic.PureOps.Ideal.Laws

noncomputable section

namespace Cert.PairRank

open Idealize.ShloMosaic Idealize.ShloMosaic.ValueIdx

/-- A natural number below 8192, written as a 32-bit word and read back as a signed integer, is itself. -/
theorem toInt_ofNat_small (n : ℕ) (h : n < 8192) : (BitVec.ofNat 32 n).toInt = (n : ℤ) := by
  have hn : (BitVec.ofNat 32 n).toNat = n := by
    rw [BitVec.toNat_ofNat]; exact Nat.mod_eq_of_lt (by omega)
  rw [BitVec.toInt_eq_toNat_of_lt (by rw [hn]; omega), hn]

/-- On or below the diagonal (`c ≤ r`) the strict comparison `r < c` of the two positions fails: both words are below
    `2 ^ 31`, so their signed comparison is the comparison of the naturals. -/
theorem upper_eq_zero (r c : Fin 8192) (h : c ≤ r) : upper r c = 0#1 := by
  have hlt : (BitVec.ofNat 32 r.val).slt (BitVec.ofNat 32 c.val) = false := by
    rw [BitVec.slt_eq_decide, toInt_ofNat_small r.val r.isLt, toInt_ofNat_small c.val c.isLt]
    have : c.val ≤ r.val := h
    exact decide_eq_false (by omega)
  unfold upper IntOp.cmpi
  simp only [hlt]
  rfl

/-- On or below the diagonal no pair counts: the conjunction with a false bit is false. -/
theorem pairBit_lower (y : Vec8192) (r c : Fin 8192) (h : c ≤ r) : pairBit y r c = 0#1 := by
  unfold pairBit IntOp.andi
  rw [upper_eq_zero r c h]
  exact BitVec.and_zero

/-- On or below the diagonal the pair's term is `0`: the selection on a false bit takes the zero word. -/
theorem pairTerm_lower (x y : Vec8192) (r c : Fin 8192) (h : c ≤ r) : pairTerm x y r c = 0 := by
  unfold pairTerm Scalar.select
  rw [pairBit_lower y r c h, if_neg (by decide)]
  exact Ideal.ofBits_zero_f32

/-- On or below the diagonal the pair's count is `0`: the false bit widened to a word reads as the integer `0`. -/
theorem pairOne_lower (y : Vec8192) (r c : Fin 8192) (h : c ≤ r) : pairOne y r c = 0 := by
  unfold pairOne
  rw [pairBit_lower y r c h]
  have e : ((0#1).setWidth 32).toInt = 0 := by decide
  rw [e]
  simp

/-! ## The tiles add up to the whole sum -/

/-- In a tile strictly below the diagonal every pair has `c ≤ r`, so a function vanishing there adds nothing: the tile's
    contribution is the tile's full sum whether or not the tile is skipped. -/
theorem tileSum_eq_full (f : Fin 8192 → Fin 8192 → EReal) (hf : ∀ r c, c ≤ r → f r c = 0) (t : Fin 64) :
    tileSum f t = ∑ p : Fin 1024, ∑ q : Fin 1024, f (gpos (tileRow t) p) (gpos (tileCol t) q) := by
  unfold tileSum
  split
  · rfl
  · rename_i hlt
    symm
    refine Finset.sum_eq_zero fun p _ => Finset.sum_eq_zero fun q _ => hf _ _ ?_
    have h1 : (tileCol t).val < (tileRow t).val := Nat.lt_of_not_le hlt
    have hp := p.isLt
    have hq := q.isLt
    show 1024 * (tileCol t).val + q.val ≤ 1024 * (tileRow t).val + p.val
    omega

/-- The tile numbered `8 · i + j` is the tile in tile row `i` and tile column `j`, and it adds the full sum over its
    `1024 × 1024` pairs. -/
theorem tileSumN_block (f : Fin 8192 → Fin 8192 → EReal) (hf : ∀ r c, c ≤ r → f r c = 0) (i j : Fin 8) :
    tileSumN f (i.val * 8 + j.val) = ∑ p : Fin 1024, ∑ q : Fin 1024, f (gpos i p) (gpos j q) := by
  have hi := i.isLt
  have hj := j.isLt
  have h : i.val * 8 + j.val < 64 := by omega
  have hr : tileRow ⟨i.val * 8 + j.val, h⟩ = i := Fin.ext (by show (i.val * 8 + j.val) / 8 = i.val; omega)
  have hc : tileCol ⟨i.val * 8 + j.val, h⟩ = j := Fin.ext (by show (i.val * 8 + j.val) % 8 = j.val; omega)
  unfold tileSumN
  rw [dif_pos h, tileSum_eq_full f hf, hr, hc]

/-- A function of two positions below 8192, extended by `0` to all pairs of naturals. -/
def extend (f : Fin 8192 → Fin 8192 → EReal) (a b : ℕ) : EReal :=
  if h : a < 8192 ∧ b < 8192 then f ⟨a, h.1⟩ ⟨b, h.2⟩ else 0

/-- The extension read at two positions below 8192. -/
theorem extend_val (f : Fin 8192 → Fin 8192 → EReal) (r c : Fin 8192) : extend f r.val c.val = f r c := by
  unfold extend
  rw [dif_pos ⟨r.isLt, c.isLt⟩]

/-- The extension read at position `p` of block `i` and position `q` of block `j`, the blocks numbered as
    `i · 1024 + p`: the same position as `1024 · i + p`. -/
theorem extend_gpos (f : Fin 8192 → Fin 8192 → EReal) (i j : Fin 8) (p q : Fin 1024) :
    extend f (i.val * 1024 + p.val) (j.val * 1024 + q.val) = f (gpos i p) (gpos j q) := by
  have e1 : i.val * 1024 + p.val = (gpos i p).val := by show _ = 1024 * i.val + p.val; omega
  have e2 : j.val * 1024 + q.val = (gpos j q).val := by show _ = 1024 * j.val + q.val; omega
  rw [e1, e2, extend_val]

/-- The 64 tile contributions, taken in order, add up to the sum over all `8192 × 8192` pairs, for any function that
    vanishes on and below the diagonal. -/
theorem tiles_total (f : Fin 8192 → Fin 8192 → EReal) (hf : ∀ r c, c ≤ r → f r c = 0) :
    ∑ k ∈ Finset.range 64, tileSumN f k = ∑ r : Fin 8192, ∑ c : Fin 8192, f r c := by
  have hR : ∑ r : Fin 8192, ∑ c : Fin 8192, f r c
      = ∑ a : Fin (8 * 1024), ∑ b : Fin (8 * 1024), extend f a.val b.val :=
    Finset.sum_congr rfl fun r _ => Finset.sum_congr rfl fun c _ => (extend_val f r c).symm
  have hL : ∑ k ∈ Finset.range 64, tileSumN f k = ∑ i : Fin 8, ∑ j : Fin 8, tileSumN f (i.val * 8 + j.val) := by
    rw [Finset.sum_range (fun k => tileSumN f k)]
    exact (Cert.LibBlockedSum.sum_blocks 8 8 (tileSumN f)).symm
  rw [hL, hR, ← Cert.LibBlockedSum.sum_blocks_two 8 1024 8 1024 (extend f)]
  refine Finset.sum_congr rfl fun i _ => ?_
  rw [Finset.sum_comm]
  refine Finset.sum_congr rfl fun j _ => ?_
  rw [tileSumN_block f hf i j]
  refine Finset.sum_congr rfl fun p _ => Finset.sum_congr rfl fun q _ => ?_
  exact (extend_gpos f i j p q).symm

/-- The hinge sum, tile by tile. -/
theorem num_tiles (x y : Vec8192) : ∑ k ∈ Finset.range 64, tileSumN (pairTerm x y) k = num x y :=
  tiles_total (pairTerm x y) (pairTerm_lower x y)

/-- The pair count, tile by tile. -/
theorem cnt_tiles (y : Vec8192) : ∑ k ∈ Finset.range 64, tileSumN (pairOne y) k = cnt y :=
  tiles_total (pairOne y) (pairOne_lower y)

end Cert.PairRank

end
-- ==== Proof.KIValue.lean ====
/-
  The two accumulators, in closed form, at the ideal instance.

  After the body at position `n` the first accumulator holds the sum, over the tiles `0 … n` in row-major order, of each tile's
  masked hinges — a tile strictly below the diagonal adding nothing — and the second the number of counting pairs of those
  tiles; by induction on the position, one step per control case. After the last tile these are the sums over all
  8192 × 8192 pairs: the specification's `num` and `cnt`.
-/
import proofs.«137468_j7060926235085_1_alg».proof.Proof.KIOuts
import proofs.«137468_j7060926235085_1_alg».proof.Proof.KIFinal
import proofs.«137468_j7060926235085_1_alg».proof.Proof.LiveTile
import proofs.«137468_j7060926235085_1_alg».proof.Proof.TriangleSum

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.PairRank Cert.PairRank.Kernel

-- the recursion is used through its equations only
attribute [local irreducible] outsAt

variable (m : (ℓ : Loc nD τ sig) → Buf (Elt Ideal) ℓ)

/-- The two argument vectors on core `c`. -/
abbrev argX (c : Dev nD) : Vec8192 := m ((c.tc : Thread nD τ).loc main_arg0)
abbrev argY (c : Dev nD) : Vec8192 := m ((c.tc : Thread nD τ).loc main_arg1)

/-! ## The recursion's equations, by position -/

theorem zero_live : (0 : ℕ) / 8 ≤ 0 % 8 := by decide

theorem outsAt_zero (c : Dev nD) (h : 0 < cfg0.N) :
    outsAt m c 0 h =
      (out_A_4 c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) ((hcond1 ⟨0, h⟩).mpr rfl) ((hcond2 ⟨0, h⟩).mpr zero_live) (iblk m c 0 ⟨0, h⟩) (iblk m c 1 ⟨0, h⟩) (iblk m c 2 ⟨0, h⟩) (iblk m c 3 ⟨0, h⟩),
       out_A_5 c (grid0.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) ((hcond1 ⟨0, h⟩).mpr rfl) ((hcond2 ⟨0, h⟩).mpr zero_live) (iblk m c 0 ⟨0, h⟩) (iblk m c 1 ⟨0, h⟩) (iblk m c 2 ⟨0, h⟩) (iblk m c 3 ⟨0, h⟩)) :=
  outsAt_A m c ⟨0, h⟩ rfl zero_live

theorem outsAt_succ_live (c : Dev nD) (n : ℕ) (h : n + 1 < cfg0.N) (h2 : (n + 1) / 8 ≤ (n + 1) % 8) :
    outsAt m c (n + 1) h =
      (out_B_4 c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (fun e => Nat.succ_ne_zero n ((hcond1 ⟨n + 1, h⟩).mp e)) ((hcond2 ⟨n + 1, h⟩).mpr h2) (iblk m c 0 ⟨n + 1, h⟩) (iblk m c 1 ⟨n + 1, h⟩) (iblk m c 2 ⟨n + 1, h⟩) (iblk m c 3 ⟨n + 1, h⟩)
          (outsAt m c n (Nat.lt_of_succ_lt h)).1 (outsAt m c n (Nat.lt_of_succ_lt h)).2,
       out_B_5 c (grid0.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (fun e => Nat.succ_ne_zero n ((hcond1 ⟨n + 1, h⟩).mp e)) ((hcond2 ⟨n + 1, h⟩).mpr h2) (iblk m c 0 ⟨n + 1, h⟩) (iblk m c 1 ⟨n + 1, h⟩) (iblk m c 2 ⟨n + 1, h⟩) (iblk m c 3 ⟨n + 1, h⟩)
          (outsAt m c n (Nat.lt_of_succ_lt h)).1 (outsAt m c n (Nat.lt_of_succ_lt h)).2) :=
  outsAt_B m c ⟨n + 1, h⟩ (Nat.succ_ne_zero n) h2

theorem outsAt_succ_skip (c : Dev nD) (n : ℕ) (h : n + 1 < cfg0.N) (h2 : ¬(n + 1) / 8 ≤ (n + 1) % 8) :
    outsAt m c (n + 1) h = outsAt m c n (Nat.lt_of_succ_lt h) :=
  outsAt_C m c ⟨n + 1, h⟩ (Nat.succ_ne_zero n) h2

/-! ## One step of each accumulator -/

/-- The first tile: the stored zero plus the tile's sum. -/
theorem first_num (c : Dev nD) (h : 0 < cfg0.N) (k : S1x1.Idx) :
    (outsAt m c 0 h).1 k = tileSumN (pairTerm (argX m c) (argY m c)) 0 := by
  rw [outsAt_zero m c h]
  dsimp only
  rw [out_A_4_eq, pay3_apply, pay1_apply, zero_add]
  exact live_tile_num m c ⟨0, h⟩ zero_live
theorem first_cnt (c : Dev nD) (h : 0 < cfg0.N) (k : S1x1.Idx) :
    (outsAt m c 0 h).2 k = tileSumN (pairOne (argY m c)) 0 := by
  rw [outsAt_zero m c h]
  dsimp only
  rw [out_A_5_eq, pay4_apply, pay2_apply, zero_add]
  exact live_tile_cnt m c ⟨0, h⟩ zero_live

/-- A later tile on or above the diagonal: what the position before left plus the tile's sum. -/
theorem live_num (c : Dev nD) (n : ℕ) (h : n + 1 < cfg0.N) (h2 : (n + 1) / 8 ≤ (n + 1) % 8) (k : S1x1.Idx) :
    (outsAt m c (n + 1) h).1 k = (outsAt m c n (Nat.lt_of_succ_lt h)).1 k + tileSumN (pairTerm (argX m c) (argY m c)) (n + 1) := by
  rw [outsAt_succ_live m c n h h2]
  dsimp only
  rw [out_B_4_eq, pay3_apply]
  exact congrArg (_ + ·) (live_tile_num m c ⟨n + 1, h⟩ h2)
theorem live_cnt (c : Dev nD) (n : ℕ) (h : n + 1 < cfg0.N) (h2 : (n + 1) / 8 ≤ (n + 1) % 8) (k : S1x1.Idx) :
    (outsAt m c (n + 1) h).2 k = (outsAt m c n (Nat.lt_of_succ_lt h)).2 k + tileSumN (pairOne (argY m c)) (n + 1) := by
  rw [outsAt_succ_live m c n h h2]
  dsimp only
  rw [out_B_5_eq, pay4_apply]
  exact congrArg (_ + ·) (live_tile_cnt m c ⟨n + 1, h⟩ h2)

/-! ## The running sums -/

/-- After position `n` the accumulators hold the tiles' sums up to tile `n`. -/
theorem outsAt_sum (c : Dev nD) (k : S1x1.Idx) : ∀ (n : ℕ) (h : n < cfg0.N),
    (outsAt m c n h).1 k = ∑ j ∈ Finset.range (n + 1), tileSumN (pairTerm (argX m c) (argY m c)) j
    ∧ (outsAt m c n h).2 k = ∑ j ∈ Finset.range (n + 1), tileSumN (pairOne (argY m c)) j := by
  intro n
  induction n with
  | zero =>
    intro h
    rw [Finset.sum_range_one, Finset.sum_range_one]
    exact ⟨first_num m c h k, first_cnt m c h k⟩
  | succ n ih =>
    intro h
    obtain ⟨ih1, ih2⟩ := ih (Nat.lt_of_succ_lt h)
    rw [Finset.sum_range_succ _ (n + 1), Finset.sum_range_succ _ (n + 1), ← ih1, ← ih2]
    by_cases h2 : (n + 1) / 8 ≤ (n + 1) % 8
    · exact ⟨live_num m c n h h2 k, live_cnt m c n h h2 k⟩
    · rw [outsAt_succ_skip m c n h h2, skip_tile _ (n + 1) h2, skip_tile _ (n + 1) h2, add_zero, add_zero]
      exact ⟨rfl, rfl⟩

/-- After the run the first result array holds the specification's hinge sum and the second its pair count. -/
theorem final_num (c : Dev nD) (k : S1x1.Idx) : (dats m 0 c).arrAt 4 cfg0.N k = num (argX m c) (argY m c) := by
  rw [final4 m c]
  exact ((outsAt_sum m c k 63 _).1).trans (num_tiles _ _)
theorem final_cnt (c : Dev nD) (k : S1x1.Idx) : (dats m 0 c).arrAt 5 cfg0.N k = cnt (argY m c) := by
  rw [final5 m c]
  exact ((outsAt_sum m c k 63 _).2).trans (cnt_tiles _)

end Cert.KernelIdeal.Hand

end
-- ==== Proof.HostTail.lean ====
/-
  The operations of the program around its region, read at the extended reals.

  Before the region the program computes the Huber mean of the two argument vectors, by the same operations, literal
  for literal, as the reference program; after the region it reshapes the region's two `[1, 1]` results (the hinge sum
  `n` and the pair count `k`) to scalars and forms `w₁ · h + w₂ · (n / max k 1 if k > 0 else 0)`. Every operation after
  the region is elementwise on scalars, a reshape of a one-element value reads its one element, the Huber mean's
  buffer is no array of the region (so the region leaves it as it was), and the region's two result arrays hold what
  the region's run says they hold. Together: the final result is `combine h n k` of the specification.
-/
import proofs.«137468_j7060926235085_1_alg».proof.Proof.Gen.KernelIdeal.Frame
import proofs.«137468_j7060926235085_1_alg».proof.Proof.Spec
import proofs.«137468_j7060926235085_1_alg».proof.Proof.RefReadP

noncomputable section

namespace Cert.PairRank.Host

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-- A value of one element, reshaped from `[1, 1]` to a scalar, reads its one element. -/
theorem shapeCast_S1x1_S_ {α : Type} (x : S1x1.Idx → α) (i : S_.Idx) :
    shapeCast S_ x shapeCasts_S1x1_S_ i = x (ix2 0 0) := by
  refine shapeCast_apply x shapeCasts_S1x1_S_ i (ix2 0 0) ?_
  have h1 := (S1x1.rowMajor (ix2 0 0)).isLt
  have h2 := (S_.rowMajor i).isLt
  have n1 : S1x1.numel = 1 := by decide
  have n2 : S_.numel = 1 := by decide
  omega

/-- The operations after the region, from any buffer contents `W`: the result is `w₁ · h + w₂ · ranking n k` with `h` the
    contents of the Huber mean's buffer and `n`, `k` the single elements of the region's two `[1, 1]` results. Every
    operation is elementwise on scalars, and the two reshapes read the one element. -/
theorem tail_read (W : Valuation τ sig (Elt Ideal)) (i : S_.Idx) :
    StableHlo.after (List.flatten [hostOps1, hostOps1_1, hostOps1_2]) W (Proc.devRef .tc main_v25) i
      = Cert.PairRank.combine (W (Proc.devRef .tc main_v11) i) (W (Proc.devRef .tc main_v16_0) (ix2 0 0))
          (W (Proc.devRef .tc main_v16_1) (ix2 0 0)) := by
  simp only [hostOps1, hostOps1_1, hostOps1_2, List.flatten_cons, List.flatten_nil, List.append_nil, List.cons_append, List.nil_append]
  after_results_simp
  show Cert.PairRank.combine (W (Proc.devRef .tc main_v11) i)
      (shapeCast S_ (W (Proc.devRef .tc main_v16_0)) shapeCasts_S1x1_S_ i)
      (shapeCast S_ (W (Proc.devRef .tc main_v16_1)) shapeCasts_S1x1_S_ i) = _
  rw [shapeCast_S1x1_S_, shapeCast_S1x1_S_]

/-- The Huber mean as the region finds it: the operations before the region, applied to the two arguments, are the
    reference program's operations for the same value, literal for literal. -/
theorem V0_main_v11 (c : Dev nD) :
    V0 m c (Proc.devRef .tc main_v11)
      = Cert.ReferenceIdeal.ReadP.val_main_v11 (F := Ideal) (m ((c.tc : Thread nD τ).loc main_arg0)) (m ((c.tc : Thread nD τ).loc main_arg1)) := by
  dsimp only [Gen.V0]
  simp only [hostOps0, hostOps0_1, hostOps0_2, List.flatten_cons, List.flatten_nil, List.append_nil, List.cons_append, List.nil_append]
  after_results_simp
  rfl

/-- `combine` at equal arguments. -/
theorem combine_congr {a a' b b' d d' : EReal} (ha : a = a') (hb : b = b') (hd : d = d') :
    Cert.PairRank.combine a b d = Cert.PairRank.combine a' b' d' := by
  rw [ha, hb, hd]

/-- The program's result: the operations after the region combine the Huber mean of the two arguments (computed before
    the region, and no array of the region) with the single elements the region leaves in its two result arrays. -/
theorem tail_result (dats : (p : Fin 1) → (c : Dev nD) → Pipeline.Dat τ (Elt Ideal) Unit ℕ (UR sig nD τ) ℕ (cfgs p) c)
    (c : Dev nD) (i : S_.Idx) :
    Pipeline.afterTail₀ cfgs dats 0 (Gen.V0 m) [hostOps1, hostOps1_1, hostOps1_2] c main_v25 i
      = Cert.PairRank.combine
          (Cert.ReferenceIdeal.ReadP.val_main_v11 (F := Ideal) (m ((c.tc : Thread nD τ).loc main_arg0)) (m ((c.tc : Thread nD τ).loc main_arg1)) ix0)
          ((dats 0 c).arrAt 4 cfg0.N (ix2 0 0)) ((dats 0 c).arrAt 5 cfg0.N (ix2 0 0)) := by
  obtain rfl := eq_ix0 i
  unfold Pipeline.afterTail₀
  refine (tail_read _ ix0).trans (combine_congr ?_ ?_ ?_)
  · rw [Pipeline.withArrays_of_ne _ c (V0 m c) _ main_v11 (by exact (by decide : ∀ w, Pipeline.arrRef spec0 w ≠ main_v11))]
    exact congrFun (V0_main_v11 m c) ix0
  · exact congrFun (Pipeline.withArrays_arr spec0 launch0.win.arr_inj c _ _ 4) (ix2 0 0)
  · exact congrFun (Pipeline.withArrays_arr spec0 launch0.win.arr_inj c _ _ 5) (ix2 0 0)

end Cert.PairRank.Host

end
-- ==== Proof.LibCountSum.lean ====
/-
  Counting by an integer sum.

  An array of 32-bit words, each of which is a one-bit value widened with zeros (so each word is 0 or 1), is summed
  by the host's integer reduction over all of its axes, starting from the zero word. Addition of 32-bit words is
  addition of natural numbers modulo 2^32, so the unsigned value of the total is the natural-number sum of the
  words' unsigned values, modulo 2^32. Each unsigned value is at most 1, so that natural sum is at most the number
  of indices; when the number of indices is below 2^31 the sum is below 2^31, the reduction modulo 2^32 does
  nothing, the top bit of the total is clear, and the total read as a SIGNED integer is that natural number: the
  number of indices whose bit is 1. Cast to the reals and then to the extended reals it is the sum, over all
  indices, of the words read as signed integers (each 0 or 1).

  The order in which the host folds is immaterial because word addition is commutative and associative.
-/
import Idealize.ShloMosaic.PureOps.Reduce
import Mathlib.Data.EReal.Operations
import Mathlib.Algebra.Order.BigOperators.Group.Finset

namespace Cert.LibCountSum

open Idealize.ShloMosaic

/-- The cast of the reals into the extended reals commutes with finite sums (it sends 0 to 0 and sums to sums). -/
theorem ereal_coe_sum {ι : Type*} (S : Finset ι) (f : ι → ℝ) :
    ((∑ i ∈ S, f i : ℝ) : EReal) = ∑ i ∈ S, ((f i : ℝ) : EReal) :=
  map_sum (⟨⟨Real.toEReal, EReal.coe_zero⟩, EReal.coe_add⟩ : ℝ →+ EReal) f S

/-- The unsigned value of a sum of words of width w, folded from the zero word over a finite set in any order, is
    the natural-number sum of the words' unsigned values modulo 2^w. -/
theorem fold_addi_toNat {ι : Type*} {w : ℕ} (S : Finset ι) (x : ι → BitVec w) :
    (S.fold IntOp.addi 0#w x).toNat = (∑ i ∈ S, (x i).toNat) % 2 ^ w := by
  induction S using Finset.cons_induction with
  | empty => simp
  | cons a S ha ih =>
    rw [Finset.fold_cons, Finset.sum_cons]
    show (x a + S.fold IntOp.addi 0#w x).toNat = _
    rw [BitVec.toNat_add, ih, Nat.add_mod_mod]

/-- A one-bit value widened with zeros to 32 bits has the same unsigned value, 0 or 1. -/
theorem toNat_setWidth_bit (b : BitVec 1) : (b.setWidth 32).toNat = b.toNat := by
  rw [BitVec.toNat_setWidth]
  have := b.isLt
  omega

/-- A one-bit value is at most 1. -/
theorem toNat_bit_le_one (b : BitVec 1) : b.toNat ≤ 1 := by
  have := b.isLt
  omega

/-- A one-bit value widened with zeros to 32 bits, read as a signed integer, is its unsigned value, 0 or 1. -/
theorem toInt_setWidth_bit (b : BitVec 1) : (b.setWidth 32).toInt = (b.toNat : ℤ) := by
  have h1 := toNat_setWidth_bit b
  have h2 := toNat_bit_le_one b
  rw [BitVec.toInt_eq_toNat_of_lt (by omega), h1]

/-- The integer count. Let b assign a bit to every index of a shape with fewer than 2^31 indices. The host's
    integer sum, over ALL axes and from the zero word, of the bits widened to 32-bit words, read as a signed
    integer, is the natural number  ∑ i, (b i).toNat : the number of indices whose bit is 1. -/
theorem hostReduce_addi_bits_toInt {s t u : Shape} {axes : List (Fin s.rank)} (b : s.Idx → BitVec 1)
    (init : u.Idx → BitVec 32) (h : s.ReducesTo axes t) (hu : 0 < u.numel) (ht : ∀ a, t.size a = 1)
    (hinit : init (Shape.Idx.first hu) = 0#32) (hn : s.numel < 2 ^ 31) (j : t.Idx) :
    (Host.reduce IntOp.addi (fun i => (b i).setWidth 32) init h hu j).toInt
      = ((∑ i : s.Idx, (b i).toNat : ℕ) : ℤ) := by
  rw [Host.reduce_eq_fold, hinit, Finset.filter_true_of_mem fun i _ => funext fun a => Fin.ext (by
    have := (h.drop i a).isLt; have := (j a).isLt; have := ht a; omega)]
  have hsum : (∑ i : s.Idx, ((b i).setWidth 32).toNat) = ∑ i : s.Idx, (b i).toNat :=
    Finset.sum_congr rfl fun i _ => toNat_setWidth_bit (b i)
  have hcard : (Finset.univ : Finset s.Idx).card = s.numel := by
    rw [Finset.card_univ, Fintype.card_congr s.rowMajor, Fintype.card_fin]
  have hle : (∑ i : s.Idx, (b i).toNat) ≤ s.numel := by
    have := Finset.sum_le_card_nsmul (Finset.univ : Finset s.Idx) (fun i => (b i).toNat) 1
      (fun i _ => toNat_bit_le_one (b i))
    rw [hcard, smul_eq_mul, mul_one] at this
    exact this
  have hnat : (Finset.univ.fold IntOp.addi 0#32 fun i : s.Idx => (b i).setWidth 32).toNat
      = ∑ i : s.Idx, (b i).toNat := by
    rw [fold_addi_toNat, hsum]
    exact Nat.mod_eq_of_lt (by omega)
  rw [BitVec.toInt_eq_toNat_of_lt (by rw [hnat]; omega), hnat]

/-- The same count as the programs read it: the host's total, read as a signed integer and cast to the reals and
    then to the extended reals, is the sum over all indices of the widened words read as signed integers (each
    summand is 0 or 1), the sum taken in the extended reals. -/
theorem hostReduce_addi_bits_ereal {s t u : Shape} {axes : List (Fin s.rank)} (b : s.Idx → BitVec 1)
    (init : u.Idx → BitVec 32) (h : s.ReducesTo axes t) (hu : 0 < u.numel) (ht : ∀ a, t.size a = 1)
    (hinit : init (Shape.Idx.first hu) = 0#32) (hn : s.numel < 2 ^ 31) (j : t.Idx) :
    (((Host.reduce IntOp.addi (fun i => (b i).setWidth 32) init h hu j).toInt : ℝ) : EReal)
      = ∑ i : s.Idx, ((((b i).setWidth 32).toInt : ℝ) : EReal) := by
  rw [hostReduce_addi_bits_toInt b init h hu ht hinit hn j, ← ereal_coe_sum]
  congr 1
  rw [Int.cast_natCast, Nat.cast_sum]
  exact Finset.sum_congr rfl fun i _ => by rw [toInt_setWidth_bit, Int.cast_natCast]

end Cert.LibCountSum
-- ==== Proof.RefSpec.lean ====
/-
  The reference program computes the quantities of the specification.

  Read at the pair of positions (r, c), the reference's mask is the specification's pair bit and its masked hinge is
  the specification's pair term; its two total reductions are the specification's sums over all pairs; and its last
  stages combine the Huber mean, the hinge sum and the pair count exactly as the specification's combination does.

  Every stage of the reference is read at an index through the stage's own read lemma. A broadcast stage reads its
  operand at an index computed from the result's index; composing these index maps along a chain of broadcasts from
  a vector to the 8192 x 8192 square gives the row position r (for a broadcast along columns) or the column
  position c (for a broadcast along rows), which is what the index equations below say.
-/
import proofs.«137468_j7060926235085_1_alg».proof.Proof.RefReadP
import proofs.«137468_j7060926235085_1_alg».proof.Proof.Spec
import proofs.«137468_j7060926235085_1_alg».proof.Proof.LibCountSum

noncomputable section

namespace Cert.PairRank.Ref

open Cert.ReferenceIdeal Cert.ReferenceIdeal.Gen Cert.ReferenceIdeal.ReadP Idealize.ShloMosaic Idealize.ShloMosaic.ValueIdx

/-! ## Index equations: a vector broadcast to the square is read at the row or at the column position -/

/-- The targets broadcast down the columns are read at the row position. -/
theorem idx_v17_v19 (r c : Fin 8192) : idx_main_v17 (idx_main_v19 (ix2 r c)) = ix1 r :=
  funext fun a => Fin.ext (by match a with | ⟨0, _⟩ => rfl)

/-- The targets broadcast along the rows are read at the column position. -/
theorem idx_v18_v20 (r c : Fin 8192) : idx_main_v18 (idx_main_v20 (ix2 r c)) = ix1 c :=
  funext fun a => Fin.ext (by match a with | ⟨0, _⟩ => rfl)

/-- The positions broadcast down the columns are read at the row position. -/
theorem idx_v28_v30 (r c : Fin 8192) : idx_main_v28 (idx_main_v30 (ix2 r c)) = ix1 r :=
  funext fun a => Fin.ext (by match a with | ⟨0, _⟩ => rfl)

/-- The positions broadcast along the rows are read at the column position. -/
theorem idx_v29_v31 (r c : Fin 8192) : idx_main_v29 (idx_main_v31 (ix2 r c)) = ix1 c :=
  funext fun a => Fin.ext (by match a with | ⟨0, _⟩ => rfl)

/-- The predictions broadcast down the columns are read at the row position. -/
theorem idx_v12_v14 (r c : Fin 8192) : idx_main_v12 (idx_main_v14 (ix2 r c)) = ix1 r :=
  funext fun a => Fin.ext (by match a with | ⟨0, _⟩ => rfl)

/-- The predictions broadcast along the rows are read at the column position. -/
theorem idx_v13_v15 (r c : Fin 8192) : idx_main_v13 (idx_main_v15 (ix2 r c)) = ix1 c :=
  funext fun a => Fin.ext (by match a with | ⟨0, _⟩ => rfl)

/-- At the extended reals the comparison of two floats is the comparison on the linear order. -/
theorem cmpf_def (p : CmpFPredicate) (a b : EReal) : FloatOps.cmpf (F := Ideal) (φ := .f32) p a b = Ideal.cmp p a b := rfl

/-! ## The mask and the masked hinge at a pair of positions -/

/-- The difference of the targets at the pair (r, c), as the reference forms it on the square. -/
theorem ref_diffY (y : (⟨S8192, .f32⟩ : BufTy).Contents (Elt Ideal)) (r c : Fin 8192) :
    val_main_v21 (F := Ideal) y (ix2 r c) = Cert.PairRank.diff y r c := by
  rw [val_main_v21_apply, val_main_v19_apply, val_main_v17_apply, val_main_v20_apply, val_main_v18_apply,
    idx_v17_v19, idx_v18_v20]
  rfl

/-- The reference's strict-upper-triangle bit at the pair (r, c) is the signed comparison of the two positions. -/
theorem ref_upper (r c : Fin 8192) : val_main_v32 (F := Ideal) (ix2 r c) = Cert.PairRank.upper r c := by
  rw [val_main_v32_apply, val_main_v30_apply, val_main_v28_apply, val_main_v25_apply, val_main_v31_apply,
    val_main_v29_apply, val_main_v25_apply, idx_v28_v30, idx_v29_v31]
  rfl

/-- The reference's mask at the pair (r, c) is the pair bit: the targets differ and r < c. -/
theorem ref_pairBit (y : (⟨S8192, .f32⟩ : BufTy).Contents (Elt Ideal)) (r c : Fin 8192) :
    val_main_v33 (F := Ideal) y (ix2 r c) = Cert.PairRank.pairBit y r c := by
  rw [val_main_v33_apply, val_main_v27_apply, ref_diffY, ref_upper, val_main_v26_apply, val_main_cst_7_apply]
  rfl

/-- The difference of the predictions at the pair (r, c), as the reference forms it on the square. -/
theorem ref_diffX (x : (⟨S8192, .f32⟩ : BufTy).Contents (Elt Ideal)) (r c : Fin 8192) :
    val_main_v16 (F := Ideal) x (ix2 r c) = Cert.PairRank.diff x r c := by
  rw [val_main_v16_apply, val_main_v14_apply, val_main_v12_apply, val_main_v15_apply, val_main_v13_apply,
    idx_v12_v14, idx_v13_v15]
  rfl

/-- The reference's sign at the pair (r, c): 1 where the targets' difference is positive and -1 elsewhere. -/
theorem ref_sign (y : (⟨S8192, .f32⟩ : BufTy).Contents (Elt Ideal)) (r c : Fin 8192) :
    val_main_v34 (F := Ideal) y (ix2 r c)
      = Scalar.select (Ideal.cmp .ogt (Cert.PairRank.diff y r c) Cert.PairRank.w0) Cert.PairRank.w1 Cert.PairRank.wm1 := by
  rw [val_main_v34_apply, val_main_v24_apply, val_main_v23_apply, ref_diffY, val_main_v22_apply, val_main_cst_4_apply,
    val_main_call1_v0_apply, val_main_cst_5_apply, val_main_call1_v1_apply, val_main_cst_6_apply]
  rfl

/-- The reference's hinge at the pair (r, c): max 0 (1 - sign * (x r - x c)). -/
theorem ref_hinge (x y : (⟨S8192, .f32⟩ : BufTy).Contents (Elt Ideal)) (r c : Fin 8192) :
    val_main_v39 (F := Ideal) x y (ix2 r c) = Cert.PairRank.hinge x y r c := by
  rw [val_main_v39_apply, val_main_v38_apply, val_main_cst_9_apply, val_main_v37_apply, val_main_v36_apply,
    val_main_cst_8_apply, val_main_v35_apply, ref_sign, ref_diffX]
  rfl

/-- The reference's masked hinge at the pair (r, c) is the pair term: the hinge where the pair counts, 0 elsewhere. -/
theorem ref_pairTerm (x y : (⟨S8192, .f32⟩ : BufTy).Contents (Elt Ideal)) (r c : Fin 8192) :
    val_main_v40 (F := Ideal) x y (ix2 r c) = Cert.PairRank.pairTerm x y r c := by
  rw [val_main_v40_apply, ref_pairBit, ref_hinge, val_main_call2_v1_apply, val_main_call2_v0_apply,
    val_main_cst_10_apply]
  rfl

/-! ## The two total reductions and the final combination -/

/-- The reference's float reduction of the masked hinges over the whole square, from the zero word, is the sum of
    the pair terms over all pairs: the initial value is 0, and a sum over the square's indices is the double sum over
    the row and the column positions. -/
theorem ref_num (x y : (⟨S8192, .f32⟩ : BufTy).Contents (Elt Ideal)) (i : S_.Idx) :
    val_main_v41 (F := Ideal) x y i = Cert.PairRank.num x y := by
  rw [val_main_v41_apply, val_main_cst_11_apply, Ideal.ofBits_def, Ideal.ofBits_zero_f32, zero_add]
  unfold Cert.PairRank.num
  refine (sum_idx2 (n0 := 8192) (n1 := 8192) _).trans ?_
  exact Finset.sum_congr rfl fun r _ => Finset.sum_congr rfl fun c _ => ref_pairTerm x y r c

/-- The reference's pair count: the integer reduction, over the whole square and from the zero word, of the mask
    bits widened to 32-bit words, converted to a float as a signed integer. The square has 2^26 < 2^31 positions, so
    the integer total does not wrap and is the number of counting pairs: the sum over all pairs of the widened bits
    read as signed integers. -/
theorem ref_cnt (y : (⟨S8192, .f32⟩ : BufTy).Contents (Elt Ideal)) (i : S_.Idx) :
    val_main_v44 (F := Ideal) y i = Cert.PairRank.cnt y := by
  rw [val_main_v44_apply]
  show (((val_main_v43 (F := Ideal) y i).toInt : ℝ) : EReal) = _
  unfold val_main_v43
  have hb : val_main_v42 (F := Ideal) y = fun j => (val_main_v33 (F := Ideal) y j).setWidth 32 :=
    funext fun j => val_main_v42_apply y j
  rw [hb]
  refine (Cert.LibCountSum.hostReduce_addi_bits_ereal (fun j => val_main_v33 (F := Ideal) y j) _
    reducesTo_S8192x8192_S_d0_1 h_S_ (fun a => a.elim0) rfl (by decide) i).trans ?_
  unfold Cert.PairRank.cnt
  refine (sum_idx2 (n0 := 8192) (n1 := 8192) _).trans ?_
  refine Finset.sum_congr rfl fun r _ => Finset.sum_congr rfl fun c _ => ?_
  unfold Cert.PairRank.pairOne
  rw [ref_pairBit]

/-- The reference's result: the two literal weights applied to the Huber mean and to the ranking term, the ranking
    term being the hinge sum divided by max(count, 1) where the count is positive and 0 elsewhere. -/
theorem ref_result (x y : (⟨S8192, .f32⟩ : BufTy).Contents (Elt Ideal)) (i : S_.Idx) :
    val_main_v51 (F := Ideal) x y i
      = Cert.PairRank.combine (val_main_v11 (F := Ideal) x y i) (Cert.PairRank.num x y) (Cert.PairRank.cnt y) := by
  rw [val_main_v51_apply, val_main_v49_apply, val_main_cst_15_apply, val_main_v50_apply, val_main_cst_16_apply,
    val_main_v48_apply, val_main_v45_apply, val_main_cst_12_apply, val_main_v47_apply, val_main_v46_apply,
    val_main_cst_13_apply, val_main_call3_v0_apply, val_main_cst_14_apply, ref_cnt, ref_num]
  rfl

end Cert.PairRank.Ref

end
-- ==== Proof.lean ====
/-
  The certificate's claims.

  Both programs compute, from two vectors `x` (predictions) and `y` (targets) of 8192 numbers,
  `w₁ · huber + w₂ · ranking`, where `huber` is the mean Huber term of `x - y` and `ranking = num / max cnt 1` (or `0` when
  `cnt = 0`), `num` the sum of the hinges `max 0 (1 - s · (xᵣ - x_c))` and `cnt` the number of the pairs `r < c` whose targets
  differ (`s` the sign of `yᵣ - y_c`).

  The reference forms the whole 8192 × 8192 arrays and sums them at once (the count as an integer sum, converted afterwards).
  The kernel walks the 8 × 8 tiles of 1024 × 1024 pairs in row-major order, skips every tile strictly below the diagonal, and
  adds each remaining tile's sums into two 1 × 1 accumulators that it zeroes at the first tile. At the ideal instance the two agree:
  a pair with `c ≤ r` contributes nothing, so the skipped tiles add zero, and a finite sum of extended reals may be taken tile by
  tile in any order; an integer count below 2³¹ converts exactly. No other law is used, and none needs the inputs finite.

  The frames of the two kernel programs are proved over the generated launch lemmas (the body run once per control case); the
  ideal pass rewrote nothing, so `preserves` is trivial.
-/
import proofs.«137468_j7060926235085_1_alg».proof.Defs
import proofs.«137468_j7060926235085_1_alg».proof.Proof.Gen.Kernel
import proofs.«137468_j7060926235085_1_alg».proof.Proof.Gen.KernelIdeal
import proofs.«137468_j7060926235085_1_alg».proof.Proof.Gen.ReferenceIdeal
import proofs.«137468_j7060926235085_1_alg».proof.Proof.Gen.Pre_finite_inputs
import proofs.«137468_j7060926235085_1_alg».proof.Proof.KBBody
import proofs.«137468_j7060926235085_1_alg».proof.Proof.KIBody
import proofs.«137468_j7060926235085_1_alg».proof.Proof.KIValue
import proofs.«137468_j7060926235085_1_alg».proof.Proof.HostTail
import proofs.«137468_j7060926235085_1_alg».proof.Proof.RefSpec
import Idealize.ShloMosaic.Adequacy
import Idealize.ShloMosaic.Init

noncomputable section

namespace Cert.Proof

open Idealize.ShloMosaic Idealize.ShloMosaic.ValueIdx Idealize.SL.Sem

/-- The word-level kernel program runs, faults nowhere, and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- At the ideal instance both programs end at `combine huber num cnt` of arguments that agree. -/
theorem algebraic : Cert.algebraic_KernelIdeal_ReferenceIdeal := by
  intro m ρ m' ρ' _ hagree
  refine ⟨fun c i => Cert.PairRank.combine
      (Cert.ReferenceIdeal.ReadP.val_main_v11 (F := Ideal) (Cert.KernelIdeal.Hand.argX m c) (Cert.KernelIdeal.Hand.argY m c) i)
      (Cert.PairRank.num (Cert.KernelIdeal.Hand.argX m c) (Cert.KernelIdeal.Hand.argY m c))
      (Cert.PairRank.cnt (Cert.KernelIdeal.Hand.argY m c)), ?_, ?_⟩
  · -- the kernel: the two result arrays hold `num` and `cnt`, and the host operations after the region combine them
    refine (θ_run Cert.KernelIdeal.defs _ _).mono (fun r h c => ⟨?_, ?_, ?_⟩) (Cert.KernelIdeal.Hand.run_main (F := Ideal) m ρ)
    · rw [(h c).2 Cert.KernelIdeal.main_v25 (Pipeline.mem_restRefs_of Cert.KernelIdeal.main_v25 (by decide) (by decide))]
      funext i
      rw [Cert.PairRank.Host.tail_result m _ c i, Cert.KernelIdeal.Hand.final_num, Cert.KernelIdeal.Hand.final_cnt, eq_ix0 i]
    · exact ((h c).2 Cert.KernelIdeal.main_arg0 (Pipeline.mem_restRefs_of Cert.KernelIdeal.main_arg0 (by decide) (by decide))).trans
        (Cert.KernelIdeal.Gen.W_main_arg0 m _ c)
    · exact ((h c).2 Cert.KernelIdeal.main_arg1 (Pipeline.mem_restRefs_of Cert.KernelIdeal.main_arg1 (by decide) (by decide))).trans
        (Cert.KernelIdeal.Gen.W_main_arg1 m _ c)
  · -- the reference: its run's term, read stage by stage
    refine (θ_run Cert.ReferenceIdeal.defs _ _).mono (fun _ h c => ⟨?_, (h c).2⟩) (Cert.ReferenceIdeal.ValueP.run (F := Ideal) m' ρ')
    rw [(h c).1, Cert.ReferenceIdeal.ReadP.val_main_v51_eq, (hagree c).1, (hagree c).2]
    funext i
    exact Cert.PairRank.Ref.ref_result _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
